-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v89) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4000000x3 : Shape := ⟨2, ![4000000, 3]⟩
abbrev S4000000x4 : Shape := ⟨2, ![4000000, 4]⟩
abbrev S3x3 : Shape := ⟨2, ![3, 3]⟩
abbrev S3 : Shape := ⟨1, ![3]⟩
abbrev S1 : Shape := ⟨1, ![1]⟩
abbrev S_ : Shape := ⟨0, ![]⟩

class Facts : Prop where
  bcast_S_S4000000x3 : S_.BroadcastsInDim S4000000x3 (![] : Fin 0 → Fin S4000000x3.rank)
  reducesTo_S4000000x3_S_d0_1 : S4000000x3.ReducesTo [0, 1] S_
  h_S_ : 0 < S_.numel
  bcast_S_S4000000x4 : S_.BroadcastsInDim S4000000x4 (![] : Fin 0 → Fin S4000000x4.rank)
  reducesTo_S4000000x4_S_d0_1 : S4000000x4.ReducesTo [0, 1] S_
  bcast_S_S3x3 : S_.BroadcastsInDim S3x3 (![] : Fin 0 → Fin S3x3.rank)
  reducesTo_S3x3_S_d0_1 : S3x3.ReducesTo [0, 1] S_
  bcast_S_S3 : S_.BroadcastsInDim S3 (![] : Fin 0 → Fin S3.rank)
  reducesTo_S3_S_d0 : S3.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S3 .f32) (main_arg5 : FVec F S1 .f32) (main_v13 : IVec S_ 1) (main_v16 : IVec S3x3 1) : IVec S_ 1 :=
  let main_c_5 : IVec S_ 1 := constantI S_ 1 1#1
  let main_v17 : IVec S_ 1 := (fun x v => Host.reduce IntOp.andi x v reducesTo_S3x3_S_d0_1 h_S_) main_v16 main_c_5
  let main_v18 : IVec S_ 1 := andi main_v13 main_v17
  let main_v19 : FVec F S3 .f32 := Host.absf main_arg4
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S1 .f32 := Host.absf main_arg5
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  main_v28

def fn {F : FTy → Type} [FloatOps F] (main_arg0 : FVec F S4000000x3 .f32) (main_arg1 : FVec F S4000000x3 .f32) (main_arg2 : FVec F S4000000x4 .f32) (main_arg3 : FVec F S3x3 .f32) (main_arg4 : FVec F S3 .f32) (main_arg5 : FVec F S1 .f32) : IVec S_ 1 :=
  let main_v0 : FVec F S4000000x3 .f32 := Host.absf main_arg0
  let main_cst : FVec F S_ .f32 := constant S_ .f32 0x7F800000#32
  let main_v1 : FVec F S4000000x3 .f32 := broadcastInDim S4000000x3 ![] bcast_S_S4000000x3 main_cst
  let main_v2 : IVec S4000000x3 1 := cmpf .olt main_v0 main_v1
  let main_c : IVec S_ 1 := constantI S_ 1 1#1
  let main_v3 : IVec S_ 1 := (fun x v => Host.reduce IntOp.andi x v reducesTo_S4000000x3_S_d0_1 h_S_) main_v2 main_c
  let main_v4 : FVec F S4000000x3 .f32 := Host.absf main_arg1
  let main_cst_0 : FVec F S_ .f32 := constant S_ .f32 0x7F800000#32
  let main_v5 : FVec F S4000000x3 .f32 := broadcastInDim S4000000x3 ![] bcast_S_S4000000x3 main_cst_0
  let main_v6 : IVec S4000000x3 1 := cmpf .olt main_v4 main_v5
  let main_c_1 : IVec S_ 1 := constantI S_ 1 1#1
  let main_v7 : IVec S_ 1 := (fun x v => Host.reduce IntOp.andi x v reducesTo_S4000000x3_S_d0_1 h_S_) main_v6 main_c_1
  let main_v8 : IVec S_ 1 := andi main_v3 main_v7
  let main_v9 : FVec F S4000000x4 .f32 := Host.absf main_arg2
  let main_cst_2 : FVec F S_ .f32 := constant S_ .f32 0x7F800000#32
  let main_v10 : FVec F S4000000x4 .f32 := broadcastInDim S4000000x4 ![] bcast_S_S4000000x4 main_cst_2
  let main_v11 : IVec S4000000x4 1 := cmpf .olt main_v9 main_v10
  let main_c_3 : IVec S_ 1 := constantI S_ 1 1#1
  let main_v12 : IVec S_ 1 := (fun x v => Host.reduce IntOp.andi x v reducesTo_S4000000x4_S_d0_1 h_S_) main_v11 main_c_3
  let main_v13 : IVec S_ 1 := andi main_v8 main_v12
  let main_v14 : FVec F S3x3 .f32 := Host.absf main_arg3
  let main_cst_4 : FVec F S_ .f32 := constant S_ .f32 0x7F800000#32
  let main_v15 : FVec F S3x3 .f32 := broadcastInDim S3x3 ![] bcast_S_S3x3 main_cst_4
  let main_v16 : IVec S3x3 1 := cmpf .olt main_v14 main_v15
  fn_part1 (F := F) main_arg4 main_arg5 main_v13 main_v16
-- ==== Kernel.lean ====
abbrev S4000000x3 : Shape := ⟨2, ![4000000, 3]⟩
abbrev S4000000x4 : Shape := ⟨2, ![4000000, 4]⟩
abbrev S3x3 : Shape := ⟨2, ![3, 3]⟩
abbrev S3 : Shape := ⟨1, ![3]⟩
abbrev S1 : Shape := ⟨1, ![1]⟩
abbrev S8000x3 : Shape := ⟨2, ![8000, 3]⟩
abbrev S8000x4 : Shape := ⟨2, ![8000, 4]⟩
abbrev S8000 : Shape := ⟨1, ![8000]⟩
abbrev S8000x1 : Shape := ⟨2, ![8000, 1]⟩
abbrev S1x1 : Shape := ⟨2, ![1, 1]⟩
abbrev S4000000x2x2 : Shape := ⟨3, ![4000000, 2, 2]⟩

abbrev nBuf : Space → Nat
  | .hbm => 9
  | .vmem => 13
  | .smem => 0
  | _ => 0

abbrev bufTy : (tb : Table) → Fin (tcTables nBuf tb) → BufTy
  | .hbm, ⟨0, _⟩ => ⟨S4000000x3, .f32⟩
  | .hbm, ⟨1, _⟩ => ⟨S4000000x3, .f32⟩
  | .hbm, ⟨2, _⟩ => ⟨S4000000x4, .f32⟩
  | .hbm, ⟨3, _⟩ => ⟨S3x3, .f32⟩
  | .hbm, ⟨4, _⟩ => ⟨S3, .f32⟩
  | .hbm, ⟨5, _⟩ => ⟨S1, .f32⟩
  | .hbm, ⟨6, _⟩ => ⟨S4000000x4, .f32⟩
  | .hbm, ⟨7, _⟩ => ⟨S4000000x3, .f32⟩
  | .hbm, ⟨8, _⟩ => ⟨S4000000x2x2, .f32⟩
  | .local _ .vmem, ⟨0, _⟩ => ⟨S8000x3, .f32⟩
  | .local _ .vmem, ⟨1, _⟩ => ⟨S8000x3, .f32⟩
  | .local _ .vmem, ⟨2, _⟩ => ⟨S8000x3, .f32⟩
  | .local _ .vmem, ⟨3, _⟩ => ⟨S8000x3, .f32⟩
  | .local _ .vmem, ⟨4, _⟩ => ⟨S8000x4, .f32⟩
  | .local _ .vmem, ⟨5, _⟩ => ⟨S8000x4, .f32⟩
  | .local _ .vmem, ⟨6, _⟩ => ⟨S3x3, .f32⟩
  | .local _ .vmem, ⟨7, _⟩ => ⟨S3, .f32⟩
  | .local _ .vmem, ⟨8, _⟩ => ⟨S1, .f32⟩
  | .local _ .vmem, ⟨9, _⟩ => ⟨S8000x4, .f32⟩
  | .local _ .vmem, ⟨10, _⟩ => ⟨S8000x4, .f32⟩
  | .local _ .vmem, ⟨11, _⟩ => ⟨S8000x3, .f32⟩
  | .local _ .vmem, ⟨12, _⟩ => ⟨S8000x3, .f32⟩
  | _, _ => ⟨S4000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8000x3 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  inb_S8000x4_S8000x4_0_0 : ∀ a, (![0, 0] : Fin 2 → Nat) a + S8000x4.size a ≤ S8000x4.size a
  h_S8000x4 : 0 < S8000x4.numel
  reduces_S8000x4_S8000 : S8000x4.Reduces [1] S8000
  shapeCasts_S8000_S8000x1 : S8000.ShapeCasts S8000x1
  broadcasts_S8000x1_S8000x4 : S8000x1.Broadcasts S8000x4
  slices_S8000x4_o0_0_S8000x1 : S8000x4.Slices ![0, 0] S8000x1
  shapeCasts_S8000x1_S8000 : S8000x1.ShapeCasts S8000
  slices_S8000x4_o0_1_S8000x1 : S8000x4.Slices ![0, 1] S8000x1
  slices_S8000x4_o0_2_S8000x1 : S8000x4.Slices ![0, 2] S8000x1
  slices_S8000x4_o0_3_S8000x1 : S8000x4.Slices ![0, 3] S8000x1
  inb_S8000x3_S8000x3_0_0 : ∀ a, (![0, 0] : Fin 2 → Nat) a + S8000x3.size a ≤ S8000x3.size a
  h_S8000x3 : 0 < S8000x3.numel
  slices_S8000x3_o0_0_S8000x1 : S8000x3.Slices ![0, 0] S8000x1
  slices_S8000x3_o0_1_S8000x1 : S8000x3.Slices ![0, 1] S8000x1
  slices_S8000x3_o0_2_S8000x1 : S8000x3.Slices ![0, 2] S8000x1
  inb_S3x3_S3x3_0_0 : ∀ a, (![0, 0] : Fin 2 → Nat) a + S3x3.size a ≤ S3x3.size a
  h_S3x3 : 0 < S3x3.numel
  slices_S3x3_o0_0_S1x1 : S3x3.Slices ![0, 0] S1x1
  inpos_S1x1_p0_0 : ∀ a, (![0, 0] : Fin 2 → Nat) a < S1x1.size a
  slices_S3x3_o0_1_S1x1 : S3x3.Slices ![0, 1] S1x1
  slices_S3x3_o0_2_S1x1 : S3x3.Slices ![0, 2] S1x1
  slices_S3x3_o1_0_S1x1 : S3x3.Slices ![1, 0] S1x1
  slices_S3x3_o1_1_S1x1 : S3x3.Slices ![1, 1] S1x1
  slices_S3x3_o1_2_S1x1 : S3x3.Slices ![1, 2] S1x1
  slices_S3x3_o2_0_S1x1 : S3x3.Slices ![2, 0] S1x1
  slices_S3x3_o2_1_S1x1 : S3x3.Slices ![2, 1] S1x1
  slices_S3x3_o2_2_S1x1 : S3x3.Slices ![2, 2] S1x1
  inb_S3_S3_0 : ∀ a, (![0] : Fin 1 → Nat) a + S3.size a ≤ S3.size a
  h_S3 : 0 < S3.numel
  slices_S3_o0_S1 : S3.Slices ![0] S1
  inpos_S1_p0 : ∀ a, (![0] : Fin 1 → Nat) a < S1.size a
  slices_S3_o1_S1 : S3.Slices ![1] S1
  slices_S3_o2_S1 : S3.Slices ![2] S1
  inb_S1_S1_0 : ∀ a, (![0] : Fin 1 → Nat) a + S1.size a ≤ S1.size a
  h_S1 : 0 < S1.numel
  concatenates_S8000x1_S8000x1_S8000x1_S8000x1_S8000x4_d1 : Shape.Concatenates [S8000x1, S8000x1, S8000x1, S8000x1] S8000x4 1
  concatenates_S8000x1_S8000x1_S8000x1_S8000x3_d1 : Shape.Concatenates [S8000x1, S8000x1, S8000x1] S8000x3 1
  shapeCasts_S4000000x4_S4000000x2x2 : S4000000x4.ShapeCasts S4000000x2x2
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S4000000x3.size a
  hwx0_0 : ∀ i : grid0.Coords, EltTy.bits .f32 = 32 ∨ (Rect.block (s := S4000000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S4000000x3.size a
  hwx0_1 : ∀ i : grid0.Coords, EltTy.bits .f32 = 32 ∨ (Rect.block (s := S4000000x3) S8000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x4.size a ≤ S4000000x4.size a
  hwx0_2 : ∀ i : grid0.Coords, EltTy.bits .f32 = 32 ∨ (Rect.block (s := S4000000x4) S8000x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x3.size a ≤ S3x3.size a
  hwx0_3 : ∀ i : grid0.Coords, EltTy.bits .f32 = 32 ∨ (Rect.block (s := S3x3) S3x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3.size a ≤ S3.size a
  hwx0_4 : ∀ i : grid0.Coords, EltTy.bits .f32 = 32 ∨ (Rect.block (s := S3) S3.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1.size a ≤ S1.size a
  hwx0_5 : ∀ i : grid0.Coords, EltTy.bits .f32 = 32 ∨ (Rect.block (s := S1) S1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x4.size a ≤ S4000000x4.size a
  hwx0_6 : ∀ i : grid0.Coords, EltTy.bits .f32 = 32 ∨ (Rect.block (s := S4000000x4) S8000x4.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8000x3.size a ≤ S4000000x3.size a
  hwx0_7 : ∀ i : grid0.Coords, EltTy.bits .f32 = 32 ∨ (Rect.block (s := S4000000x3) S8000x3.size (cc0_transform_7 i) (hinb0_7 i)).WholeWords (EltTy.packing .f32)

variable [Facts₀]

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8000x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S3.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v0_0) S8000x4.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_1) S8000x3.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4000000x3 : Shape := ⟨2, ![4000000, 3]⟩
abbrev S4000000x4 : Shape := ⟨2, ![4000000, 4]⟩
abbrev S3x3 : Shape := ⟨2, ![3, 3]⟩
abbrev S3 : Shape := ⟨1, ![3]⟩
abbrev S1 : Shape := ⟨1, ![1]⟩
abbrev S_ : Shape := ⟨0, ![]⟩
abbrev S4000000 : Shape := ⟨1, ![4000000]⟩
abbrev S4000000x1 : Shape := ⟨2, ![4000000, 1]⟩
abbrev S4000000x1x3 : Shape := ⟨3, ![4000000, 1, 3]⟩
abbrev S4000000x3x3 : Shape := ⟨3, ![4000000, 3, 3]⟩
abbrev S1x3 : Shape := ⟨2, ![1, 3]⟩
abbrev S4000000x2x3 : Shape := ⟨3, ![4000000, 2, 3]⟩
abbrev S4000000x3x2 : Shape := ⟨3, ![4000000, 3, 2]⟩
abbrev S4000000x2x2 : Shape := ⟨3, ![4000000, 2, 2]⟩
abbrev S2x2 : Shape := ⟨2, ![2, 2]⟩
abbrev S1x2x2 : Shape := ⟨3, ![1, 2, 2]⟩

abbrev nBuf : Space → Nat
  | .hbm => 164
  | .vmem => 0
  | .smem => 0
  | _ => 0

abbrev hbmTy0_0 (i : Nat) : BufTy := match i % 128 with
  | 0 => ⟨S4000000x3, .f32⟩
  | 1 => ⟨S4000000x3, .f32⟩
  | 2 => ⟨S4000000x4, .f32⟩
  | 3 => ⟨S3x3, .f32⟩
  | 4 => ⟨S3, .f32⟩
  | 5 => ⟨S1, .f32⟩
  | 6 => ⟨S4000000x3, .f32⟩
  | 7 => ⟨S_, .f32⟩
  | 8 => ⟨S4000000x3, .f32⟩
  | 9 => ⟨S4000000x3, .f32⟩
  | 10 => ⟨S4000000x4, .f32⟩
  | 11 => ⟨S_, .f32⟩
  | 12 => ⟨S4000000, .f32⟩
  | 13 => ⟨S4000000x1, .f32⟩
  | 14 => ⟨S4000000x1, .f32⟩
  | 15 => ⟨S4000000x4, .f32⟩
  | 16 => ⟨S4000000x4, .f32⟩
  | 17 => ⟨S4000000x1, .f32⟩
  | 18 => ⟨S4000000, .f32⟩
  | 19 => ⟨S4000000x1, .f32⟩
  | 20 => ⟨S4000000, .f32⟩
  | 21 => ⟨S4000000x1, .f32⟩
  | 22 => ⟨S4000000, .f32⟩
  | 23 => ⟨S4000000x1, .f32⟩
  | 24 => ⟨S4000000, .f32⟩
  | 25 => ⟨S4000000, .f32⟩
  | 26 => ⟨S4000000, .f32⟩
  | 27 => ⟨S4000000, .f32⟩
  | 28 => ⟨S_, .f32⟩
  | 29 => ⟨S4000000, .f32⟩
  | 30 => ⟨S4000000, .f32⟩
  | 31 => ⟨S_, .f32⟩
  | 32 => ⟨S4000000, .f32⟩
  | 33 => ⟨S4000000, .f32⟩
  | 34 => ⟨S4000000, .f32⟩
  | 35 => ⟨S4000000, .f32⟩
  | 36 => ⟨S4000000, .f32⟩
  | 37 => ⟨S_, .f32⟩
  | 38 => ⟨S4000000, .f32⟩
  | 39 => ⟨S4000000, .f32⟩
  | 40 => ⟨S4000000, .f32⟩
  | 41 => ⟨S4000000, .f32⟩
  | 42 => ⟨S4000000, .f32⟩
  | 43 => ⟨S_, .f32⟩
  | 44 => ⟨S4000000, .f32⟩
  | 45 => ⟨S4000000, .f32⟩
  | 46 => ⟨S4000000x1, .f32⟩
  | 47 => ⟨S4000000x1, .f32⟩
  | 48 => ⟨S4000000x1, .f32⟩
  | 49 => ⟨S4000000x3, .f32⟩
  | 50 => ⟨S4000000, .f32⟩
  | 51 => ⟨S4000000, .f32⟩
  | 52 => ⟨S4000000, .f32⟩
  | 53 => ⟨S_, .f32⟩
  | 54 => ⟨S4000000, .f32⟩
  | 55 => ⟨S4000000, .f32⟩
  | 56 => ⟨S4000000, .f32⟩
  | 57 => ⟨S4000000, .f32⟩
  | 58 => ⟨S4000000, .f32⟩
  | 59 => ⟨S_, .f32⟩
  | 60 => ⟨S4000000, .f32⟩
  | 61 => ⟨S4000000, .f32⟩
  | 62 => ⟨S_, .f32⟩
  | 63 => ⟨S4000000, .f32⟩
  | 64 => ⟨S4000000, .f32⟩
  | 65 => ⟨S4000000, .f32⟩
  | 66 => ⟨S4000000, .f32⟩
  | 67 => ⟨S4000000, .f32⟩
  | 68 => ⟨S_, .f32⟩
  | 69 => ⟨S4000000, .f32⟩
  | 70 => ⟨S4000000, .f32⟩
  | 71 => ⟨S4000000x1, .f32⟩
  | 72 => ⟨S4000000x1, .f32⟩
  | 73 => ⟨S4000000x1, .f32⟩
  | 74 => ⟨S4000000x3, .f32⟩
  | 75 => ⟨S4000000, .f32⟩
  | 76 => ⟨S4000000, .f32⟩
  | 77 => ⟨S4000000, .f32⟩
  | 78 => ⟨S_, .f32⟩
  | 79 => ⟨S4000000, .f32⟩
  | 80 => ⟨S4000000, .f32⟩
  | 81 => ⟨S4000000, .f32⟩
  | 82 => ⟨S4000000, .f32⟩
  | 83 => ⟨S4000000, .f32⟩
  | 84 => ⟨S_, .f32⟩
  | 85 => ⟨S4000000, .f32⟩
  | 86 => ⟨S4000000, .f32⟩
  | 87 => ⟨S4000000, .f32⟩
  | 88 => ⟨S4000000, .f32⟩
  | 89 => ⟨S4000000, .f32⟩
  | 90 => ⟨S_, .f32⟩
  | 91 => ⟨S4000000, .f32⟩
  | 92 => ⟨S4000000, .f32⟩
  | 93 => ⟨S_, .f32⟩
  | 94 => ⟨S4000000, .f32⟩
  | 95 => ⟨S4000000, .f32⟩
  | 96 => ⟨S4000000x1, .f32⟩
  | 97 => ⟨S4000000x1, .f32⟩
  | 98 => ⟨S4000000x1, .f32⟩
  | 99 => ⟨S4000000x3, .f32⟩
  | 100 => ⟨S4000000x1x3, .f32⟩
  | 101 => ⟨S4000000x1x3, .f32⟩
  | 102 => ⟨S4000000x1x3, .f32⟩
  | 103 => ⟨S4000000x3x3, .f32⟩
  | 104 => ⟨S4000000x1x3, .f32⟩
  | 105 => ⟨S4000000x3x3, .f32⟩
  | 106 => ⟨S4000000x3x3, .f32⟩
  | 107 => ⟨S4000000x3x3, .f32⟩
  | 108 => ⟨S3x3, .f32⟩
  | 109 => ⟨S4000000x3, .f32⟩
  | 110 => ⟨S1x3, .f32⟩
  | 111 => ⟨S4000000x3, .f32⟩
  | 112 => ⟨S4000000x3, .f32⟩
  | 113 => ⟨S_, .f32⟩
  | 114 => ⟨S4000000x1, .f32⟩
  | 115 => ⟨S4000000, .f32⟩
  | 116 => ⟨S4000000x1, .f32⟩
  | 117 => ⟨S4000000, .f32⟩
  | 118 => ⟨S4000000x1, .f32⟩
  | 119 => ⟨S4000000, .f32⟩
  | 120 => ⟨S_, .f32⟩
  | 121 => ⟨S4000000, .f32⟩
  | 122 => ⟨S4000000, .f32⟩
  | 123 => ⟨S_, .f32⟩
  | 124 => ⟨S4000000, .f32⟩
  | 125 => ⟨S4000000, .f32⟩
  | 126 => ⟨S4000000, .f32⟩
  | 127 => ⟨S4000000, .f32⟩
  | _ => ⟨S4000000x3, .f32⟩

abbrev hbmTy0_1 (i : Nat) : BufTy := match i % 128 with
  | 0 => ⟨S4000000, .f32⟩
  | 1 => ⟨S4000000, .f32⟩
  | 2 => ⟨S4000000, .f32⟩
  | 3 => ⟨S4000000, .f32⟩
  | 4 => ⟨S4000000x1, .f32⟩
  | 5 => ⟨S4000000x1, .f32⟩
  | 6 => ⟨S4000000x1, .f32⟩
  | 7 => ⟨S4000000x3, .f32⟩
  | 8 => ⟨S4000000, .f32⟩
  | 9 => ⟨S4000000, .f32⟩
  | 10 => ⟨S4000000, .f32⟩
  | 11 => ⟨S4000000, .f32⟩
  | 12 => ⟨S4000000, .f32⟩
  | 13 => ⟨S4000000x1, .f32⟩
  | 14 => ⟨S4000000x1, .f32⟩
  | 15 => ⟨S4000000x1, .f32⟩
  | 16 => ⟨S4000000x3, .f32⟩
  | 17 => ⟨S4000000x1x3, .f32⟩
  | 18 => ⟨S4000000x1x3, .f32⟩
  | 19 => ⟨S4000000x2x3, .f32⟩
  | 20 => ⟨S4000000x2x3, .f32⟩
  | 21 => ⟨S4000000x3x2, .f32⟩
  | 22 => ⟨S4000000x2x2, .f32⟩
  | 23 => ⟨S2x2, .i32⟩
  | 24 => ⟨S2x2, .i32⟩
  | 25 => ⟨S_, .i32⟩
  | 26 => ⟨S2x2, .i32⟩
  | 27 => ⟨S2x2, .i32⟩
  | 28 => ⟨S2x2, .i1⟩
  | 29 => ⟨S2x2, .f32⟩
  | 30 => ⟨S_, .f32⟩
  | 31 => ⟨S2x2, .f32⟩
  | 32 => ⟨S2x2, .f32⟩
  | 33 => ⟨S1x2x2, .f32⟩
  | 34 => ⟨S4000000x2x2, .f32⟩
  | 35 => ⟨S4000000x2x2, .f32⟩
  | _ => ⟨S4000000x3, .f32⟩

abbrev hbmTy (i : Nat) : BufTy := match i / 128 with
  | 0 => hbmTy0_0 i
  | 1 => hbmTy0_1 i
  | _ => ⟨S4000000x3, .f32⟩

abbrev bufTy : (tb : Table) → Fin (tcTables nBuf tb) → BufTy
  | .hbm, ⟨i, _⟩ => hbmTy i
  | _, _ => ⟨S4000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_2 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_3 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_4 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_5 : Ref sig .tc := ⟨.hbm, 59, rfl⟩
abbrev main_v43 : Ref sig .tc := ⟨.hbm, 60, rfl⟩
abbrev main_v44 : Ref sig .tc := ⟨.hbm, 61, rfl⟩
abbrev main_cst_6 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_7 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_8 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_9 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_10 : Ref sig .tc := ⟨.hbm, 90, rfl⟩
abbrev main_v69 : Ref sig .tc := ⟨.hbm, 91, rfl⟩
abbrev main_v70 : Ref sig .tc := ⟨.hbm, 92, rfl⟩
abbrev main_cst_11 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩
abbrev main_v96 : Ref sig .tc := ⟨.hbm, 119, rfl⟩
abbrev main_cst_12 : Ref sig .tc := ⟨.hbm, 120, rfl⟩
abbrev main_v97 : Ref sig .tc := ⟨.hbm, 121, rfl⟩
abbrev main_v98 : Ref sig .tc := ⟨.hbm, 122, rfl⟩
abbrev main_cst_13 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_c : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_cst_14 : Ref sig .tc := ⟨.hbm, 158, rfl⟩
abbrev main_v132 : Ref sig .tc := ⟨.hbm, 159, rfl⟩
abbrev main_v133 : Ref sig .tc := ⟨.hbm, 160, rfl⟩
abbrev main_v134 : Ref sig .tc := ⟨.hbm, 161, rfl⟩
abbrev main_v135 : Ref sig .tc := ⟨.hbm, 162, rfl⟩
abbrev main_v136 : Ref sig .tc := ⟨.hbm, 163, rfl⟩

abbrev nD : Nat := 1
abbrev τ : Topo := Topo.v7x

variable {F : FTy → Type} [FloatOps F]

class Facts₀ : Prop where
  bcast_S_S4000000x3 : S_.BroadcastsInDim S4000000x3 (![] : Fin 0 → Fin S4000000x3.rank)
  reducesTo_S4000000x4_S4000000_d1 : S4000000x4.ReducesTo [1] S4000000
  h_S_ : 0 < S_.numel
  bcast_S4000000_S4000000x1_0 : S4000000.BroadcastsInDim S4000000x1 (![0] : Fin 1 → Fin S4000000x1.rank)
  bcast_S4000000x1_S4000000x4_0_1 : S4000000x1.BroadcastsInDim S4000000x4 (![0, 1] : Fin 2 → Fin S4000000x4.rank)
  slices_S4000000x4_S4000000x1_0_0 : S4000000x4.Slices ![0, 0] S4000000x1
  shapeCasts_S4000000x1_S4000000 : S4000000x1.ShapeCasts S4000000
  slices_S4000000x4_S4000000x1_0_1 : S4000000x4.Slices ![0, 1] S4000000x1
  slices_S4000000x4_S4000000x1_0_2 : S4000000x4.Slices ![0, 2] S4000000x1
  slices_S4000000x4_S4000000x1_0_3 : S4000000x4.Slices ![0, 3] S4000000x1
  bcast_S_S4000000 : S_.BroadcastsInDim S4000000 (![] : Fin 0 → Fin S4000000.rank)
  concatenates_S4000000x1_S4000000x1_S4000000x1_S4000000x3_d1 : Shape.Concatenates [S4000000x1, S4000000x1, S4000000x1] S4000000x3 1
  bcast_S4000000x3_S4000000x1x3_0_2 : S4000000x3.BroadcastsInDim S4000000x1x3 (![0, 2] : Fin 2 → Fin S4000000x1x3.rank)
  concatenates_S4000000x1x3_S4000000x1x3_S4000000x1x3_S4000000x3x3_d1 : Shape.Concatenates [S4000000x1x3, S4000000x1x3, S4000000x1x3] S4000000x3x3 1
  bcast_S4000000x1x3_S4000000x3x3_0_1_2 : S4000000x1x3.BroadcastsInDim S4000000x3x3 (![0, 1, 2] : Fin 3 → Fin S4000000x3x3.rank)
  transposes_S3x3_S3x3_1_0 : S3x3.Transposes [1, 0] S3x3
  bcast_S3_S1x3_1 : S3.BroadcastsInDim S1x3 (![1] : Fin 1 → Fin S1x3.rank)
  bcast_S1x3_S4000000x3_0_1 : S1x3.BroadcastsInDim S4000000x3 (![0, 1] : Fin 2 → Fin S4000000x3.rank)
  shapeCasts_S1_S_ : S1.ShapeCasts S_
  slices_S4000000x3_S4000000x1_0_0 : S4000000x3.Slices ![0, 0] S4000000x1
  slices_S4000000x3_S4000000x1_0_1 : S4000000x3.Slices ![0, 1] S4000000x1
  slices_S4000000x3_S4000000x1_0_2 : S4000000x3.Slices ![0, 2] S4000000x1
  concatenates_S4000000x1x3_S4000000x1x3_S4000000x2x3_d1 : Shape.Concatenates [S4000000x1x3, S4000000x1x3] S4000000x2x3 1
  bcast_S_S2x2 : S_.BroadcastsInDim S2x2 (![] : Fin 0 → Fin S2x2.rank)
  bcast_S2x2_S1x2x2_1_2 : S2x2.BroadcastsInDim S1x2x2 (![1, 2] : Fin 2 → Fin S1x2x2.rank)
  bcast_S1x2x2_S4000000x2x2_0_1_2 : S1x2x2.BroadcastsInDim S4000000x2x2 (![0, 1, 2] : Fin 3 → Fin S4000000x2x2.rank)
  dot_S4000000x3x3_S4000000x3x3_S4000000x3x3_2_2_1_1_0_0_wf : DotDims.WF S4000000x3x3 S4000000x3x3 S4000000x3x3 [2] [2] [1] [1] [0] [0]
  dot_S4000000x3_S3x3_S4000000x3_1_0_0_1_n_n_wf : DotDims.WF S4000000x3 S3x3 S4000000x3 [1] [0] [0] [1] [] []
  dot_S4000000x2x3_S3x3_S4000000x2x3_2_0_01_1_n_n_wf : DotDims.WF S4000000x2x3 S3x3 S4000000x2x3 [2] [0] [0, 1] [1] [] []
  dot_S4000000x3x3_S4000000x2x3_S4000000x3x2_1_2_2_1_0_0_wf : DotDims.WF S4000000x3x3 S4000000x2x3 S4000000x3x2 [1] [2] [2] [1] [0] [0]
  dot_S4000000x3x2_S4000000x2x3_S4000000x2x2_1_2_2_1_0_0_wf : DotDims.WF S4000000x3x2 S4000000x2x3 S4000000x2x2 [1] [2] [2] [1] [0] [0]

variable [Facts₀]

def dot_S4000000x3x3_S4000000x3x3_S4000000x3x3_2_2_1_1_0_0 : DotDims S4000000x3x3 S4000000x3x3 S4000000x3x3 where
  lhsContracting := [2]
  rhsContracting := [2]
  lhsNonContracting := [1]
  rhsNonContracting := [1]
  lhsBatch := [0]
  rhsBatch := [0]
  wf := dot_S4000000x3x3_S4000000x3x3_S4000000x3x3_2_2_1_1_0_0_wf
def dot_S4000000x3_S3x3_S4000000x3_1_0_0_1_n_n : DotDims S4000000x3 S3x3 S4000000x3 where
  lhsContracting := [1]
  rhsContracting := [0]
  lhsNonContracting := [0]
  rhsNonContracting := [1]
  lhsBatch := []
  rhsBatch := []
  wf := dot_S4000000x3_S3x3_S4000000x3_1_0_0_1_n_n_wf
def dot_S4000000x2x3_S3x3_S4000000x2x3_2_0_01_1_n_n : DotDims S4000000x2x3 S3x3 S4000000x2x3 where
  lhsContracting := [2]
  rhsContracting := [0]
  lhsNonContracting := [0, 1]
  rhsNonContracting := [1]
  lhsBatch := []
  rhsBatch := []
  wf := dot_S4000000x2x3_S3x3_S4000000x2x3_2_0_01_1_n_n_wf
def dot_S4000000x3x3_S4000000x2x3_S4000000x3x2_1_2_2_1_0_0 : DotDims S4000000x3x3 S4000000x2x3 S4000000x3x2 where
  lhsContracting := [1]
  rhsContracting := [2]
  lhsNonContracting := [2]
  rhsNonContracting := [1]
  lhsBatch := [0]
  rhsBatch := [0]
  wf := dot_S4000000x3x3_S4000000x2x3_S4000000x3x2_1_2_2_1_0_0_wf
def dot_S4000000x3x2_S4000000x2x3_S4000000x2x2_1_2_2_1_0_0 : DotDims S4000000x3x2 S4000000x2x3 S4000000x2x2 where
  lhsContracting := [1]
  rhsContracting := [2]
  lhsNonContracting := [2]
  rhsNonContracting := [1]
  lhsBatch := [0]
  rhsBatch := [0]
  wf := dot_S4000000x3x2_S4000000x2x3_S4000000x2x2_1_2_2_1_0_0_wf

class Facts : Prop extends Facts₀ where

variable [Facts]
-- ==== Proof.Algebra.lean ====
/-
  One Gaussian's projected covariance, on the extended reals.

  From a row of the rotation array (a raw quaternion a), a row of the log-scales e, a point x, the camera
  rotation R, its translation T and the focal length f:
    q   = a / |a|                                    the unit quaternion (w, x, y, z)
    Rq  = the rotation matrix of q,   s = min (exp e) 10
    M   = Rq · diag s,   Σ = M Mᵀ                    the 3×3 covariance
    p   = R x + T                                    the point in camera space
    J   = the 2×3 Jacobian of the perspective map at p (depth p₂ + ε),   W = J R
    C   = W Σ Wᵀ + 0.3 · I                           the 2×2 image-plane covariance.
  Every product of small matrices is written out as three-term sums (dot3). Two spellings of one value meet
  here: one writes W's rows with the Jacobian's structural zeros dropped, uses Σ's upper triangle for both
  triangles, and negates by subtracting from zero; the other keeps the zeros, contracts Σ on its first axis, and
  negates directly. They differ by commutativity of the product, 0 · r = 0, t + 0 = t and 0 - t = -t, all
  of which hold for every extended real, infinities included: no finiteness is used.
-/
import Idealize.ShloMosaic.PureOps.Ideal
import Idealize.ShloMosaic.PureOps.Ideal.Laws

noncomputable section

namespace Cert.Splat

open Idealize.ShloMosaic

/-- The float words that occur: 0, 1, 2, 10, 0.3 and 1e-7, each its exact binary value. -/
abbrev wZero : EReal := Ideal.ofBits .f32 0x00000000#32
abbrev wOne : EReal := Ideal.ofBits .f32 0x3F800000#32
abbrev wTwo : EReal := Ideal.ofBits .f32 0x40000000#32
abbrev wTen : EReal := Ideal.ofBits .f32 0x41200000#32
abbrev wDil : EReal := Ideal.ofBits .f32 0x3E99999A#32
abbrev wEps : EReal := Ideal.ofBits .f32 0x33D6BF95#32

/-- A three-term inner product, associated to the left. -/
def dot3 (u v : Fin 3 → EReal) : EReal := (u 0 * v 0 + u 1 * v 1) + u 2 * v 2

theorem dot3_comm (u v : Fin 3 → EReal) : dot3 u v = dot3 v u := by
  unfold dot3; rw [mul_comm (u 0), mul_comm (u 1), mul_comm (u 2)]

/-- The finite sum over three indices is the left-associated three-term sum. -/
theorem sum3_eq_dot3 (u v : Fin 3 → EReal) : (∑ k : Fin 3, u k * v k) = dot3 u v := by
  rw [Fin.sum_univ_three]; rfl

/-- A Jacobian row with its middle entry zero. -/
theorem dot3_zero_mid (p b : EReal) (v : Fin 3 → EReal) : dot3 ![p, 0, b] v = p * v 0 + b * v 2 := by
  show (p * v 0 + 0 * v 1) + b * v 2 = _
  rw [zero_mul, add_zero]

/-- A Jacobian row with its first entry zero. -/
theorem dot3_zero_fst (p b : EReal) (v : Fin 3 → EReal) : dot3 ![0, p, b] v = p * v 1 + b * v 2 := by
  show (0 * v 0 + p * v 1) + b * v 2 = _
  rw [zero_mul, zero_add]

/-- Subtracting from the zero word is negation. -/
theorem wZero_sub (t : EReal) : wZero - t = -t := by
  show Ideal.ofBits .f32 0x00000000#32 - t = -t
  rw [Ideal.ofBits_zero_f32, zero_sub]

variable (a : Fin 4 → EReal) (e : Fin 3 → EReal) (x : Fin 3 → EReal) (R : Fin 3 → Fin 3 → EReal)
  (T : Fin 3 → EReal) (f : EReal)

/-- The quaternion divided by its length. -/
def quat (c : Fin 4) : EReal := Ideal.div (a c) (Ideal.sqrt (∑ k : Fin 4, a k * a k))

/-- The scales: the exponentials, clamped above at 10. -/
def scl (j : Fin 3) : EReal := min (Ideal.exp (e j)) wTen

/-- The rotation matrix of a quaternion q = (w, x, y, z). -/
def rot (q : Fin 4 → EReal) : Fin 3 → Fin 3 → EReal :=
  ![![wOne - wTwo * (q 2 * q 2 + q 3 * q 3), wTwo * (q 1 * q 2 - q 0 * q 3), wTwo * (q 1 * q 3 + q 0 * q 2)],
    ![wTwo * (q 1 * q 2 + q 0 * q 3), wOne - wTwo * (q 1 * q 1 + q 3 * q 3), wTwo * (q 2 * q 3 - q 0 * q 1)],
    ![wTwo * (q 1 * q 3 - q 0 * q 2), wTwo * (q 2 * q 3 + q 0 * q 1), wOne - wTwo * (q 1 * q 1 + q 2 * q 2)]]

/-- M = Rq · diag s: column j of the rotation scaled by s j. -/
def mm (i j : Fin 3) : EReal := rot (quat a) i j * scl e j

/-- Σ = M Mᵀ. -/
def cov (i k : Fin 3) : EReal := dot3 (mm a e i) (mm a e k)

theorem cov_symm (i k : Fin 3) : cov a e i k = cov a e k i := dot3_comm _ _

/-- The point in camera space: R x + T. -/
def cam (i : Fin 3) : EReal := dot3 x (R i) + T i

/-- The depth with its epsilon. -/
def zeps : EReal := cam x R T 2 + wEps

/-- f / z. -/
def invz : EReal := Ideal.div f (zeps x R T)

/-- -(f · p i) / z², the last column of the Jacobian's row i, the negation written as a difference from zero. -/
def jz (i : Fin 3) : EReal := Ideal.div (wZero - f * cam x R T i) (zeps x R T * zeps x R T)

/-- The same with the negation written directly. -/
theorem jz_neg (i : Fin 3) : Ideal.div (-(f * cam x R T i)) (zeps x R T * zeps x R T) = jz x R T f i := by
  unfold jz; rw [wZero_sub]

/-- Row i (0 or 1) of W = J R, the Jacobian's structural zero dropped. -/
def mw (i k : Fin 3) : EReal := invz x R T f * R i k + jz x R T f i * R 2 k

/-- The Jacobian's rows with their zeros, times a column of R, are W's entries. -/
theorem mw_row0 (k : Fin 3) :
    dot3 ![invz x R T f, 0, Ideal.div (-(f * cam x R T 0)) (zeps x R T * zeps x R T)] (fun j => R j k)
      = mw x R T f 0 k := by
  rw [dot3_zero_mid, jz_neg]; rfl

theorem mw_row1 (k : Fin 3) :
    dot3 ![0, invz x R T f, Ideal.div (-(f * cam x R T 1)) (zeps x R T * zeps x R T)] (fun j => R j k)
      = mw x R T f 1 k := by
  rw [dot3_zero_fst, jz_neg]; rfl

/-- Row i of W Σ, with Σ's upper triangle standing for both triangles. -/
def tmp (i : Fin 3) : Fin 3 → EReal :=
  ![dot3 (mw x R T f i) ![cov a e 0 0, cov a e 0 1, cov a e 0 2],
    dot3 (mw x R T f i) ![cov a e 0 1, cov a e 1 1, cov a e 1 2],
    dot3 (mw x R T f i) ![cov a e 0 2, cov a e 1 2, cov a e 2 2]]

/-- Σ contracted on its FIRST axis against row i of W is the same entry of W Σ. -/
theorem tmp_eq (i k : Fin 3) : dot3 (fun j => cov a e j k) (mw x R T f i) = tmp a e x R T f i k := by
  rw [dot3_comm]
  fin_cases k
  · show (mw x R T f i 0 * cov a e 0 0 + mw x R T f i 1 * cov a e 1 0) + mw x R T f i 2 * cov a e 2 0
      = (mw x R T f i 0 * cov a e 0 0 + mw x R T f i 1 * cov a e 0 1) + mw x R T f i 2 * cov a e 0 2
    rw [cov_symm a e 1 0, cov_symm a e 2 0]
  · show (mw x R T f i 0 * cov a e 0 1 + mw x R T f i 1 * cov a e 1 1) + mw x R T f i 2 * cov a e 2 1
      = (mw x R T f i 0 * cov a e 0 1 + mw x R T f i 1 * cov a e 1 1) + mw x R T f i 2 * cov a e 1 2
    rw [cov_symm a e 2 1]
  · rfl

/-- (W Σ Wᵀ) at (i, l). -/
def cc (i l : Fin 3) : EReal := dot3 (tmp a e x R T f i) (mw x R T f l)

/-- The 2×2 result laid flat, row-major, the dilation added on the diagonal. -/
def cflat : Fin 4 → EReal :=
  ![cc a e x R T f 0 0 + wDil, cc a e x R T f 0 1, cc a e x R T f 1 0, cc a e x R T f 1 1 + wDil]

end Cert.Splat

end
-- ==== Proof.LibColumn.lean ====
/-
  Two layout operations of a "keep the reduced axis" column, read at an index given by its coordinates.

  A row-wise reduction with the reduced axis kept produces a column of shape [a, 1]: a vector [a] re-laid as [a, 1],
  later spread over [a, b]. Both are re-indexings: the re-laid column at (i, 0) is the vector at i, and the spread column
  at (i, j) is the column at (i, 0).
-/
import Idealize.ShloMosaic.Lib.Pipeline.Value
import Idealize.ShloMosaic.Lib.ValueIdx

namespace Cert.LibColumn

open Idealize.ShloMosaic Idealize.ShloMosaic.ValueIdx

variable {α : Type}

/-- A vector `[a]` re-laid as a column `[a, 1]` reads, at `(i, 0)`, the vector at `i`: the row-major position is the same. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(i, j)`, the column at `(i, 0)`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Cert.LibColumn
-- ==== Proof.LibLaneSum.lean ====
/-
  A sum along the rows of a matrix, read at a row.

  Reducing an [a, b] matrix along its second axis with the additive accumulator at zero gives, at the ideal values, the
  vector whose entry p is the sum over the b columns of the matrix's row p: the source index over result entry p with
  coordinate k on the dropped axis is (p, k).
-/
import Idealize.ShloMosaic.PureOps.Ideal.Laws
import Idealize.ShloMosaic.Lib.ValueIdx

noncomputable section

namespace Cert.LibLaneSum

open Idealize.ShloMosaic Idealize.ShloMosaic.ValueIdx

/-- The source index over result entry `p` with `k` on the dropped second axis is `(p, k)`. -/
theorem lift_row {a b : ℕ} (h : (⟨2, ![a, b]⟩ : Shape).Reduces [1] ⟨1, ![a]⟩) (p : Fin a) (k : Fin b) :
    h.lift (ix1 p) k = ix2 p k :=
  funext fun c => Fin.ext (by match c with | ⟨0, _⟩ => rfl | ⟨1, _⟩ => rfl)

/-- An additive reduction of an `[a, b]` matrix along its second axis from the zero word, read at row `p`. -/
theorem lane_sum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec FTy.f32.bits) = FKind.add.neutral .f32 hφ) (p : Fin a) :
    multiReduction .add [1] ⟨1, ![a]⟩ src 0x00000000#32 h hφ hacc (ix1 p) = ∑ k : Fin b, src (ix2 p k) :=
  (Ideal.multiReduction_add_single src 0x00000000#32 h hφ hacc (ix1 p)).trans
    (Finset.sum_congr rfl fun k _ => congrArg src (lift_row h p k))

end Cert.LibLaneSum

end
-- ==== Proof.LibUnitColumns.lean ====
/-
  Unit-width columns of a matrix, read at an index given by coordinates.

  Three re-indexings that occur whenever a matrix [a, b] is taken apart into its columns and put together again:
  a column [a, 1] re-laid as the vector [a] reads at i the column at (i, 0); the unit-width slice of a matrix
  starting at column c reads at (i, 0) the matrix at (i, c); and a join of unit-width columns along the second
  axis reads at (i, k) the k-th column at (i, 0); likewise unit-thickness slabs joined along the middle axis of a
  rank-3 array.
-/
import Idealize.ShloMosaic.Lib.Pipeline.Value
import Idealize.ShloMosaic.Lib.ValueIdx

namespace Cert.LibUnitColumns

open Idealize.ShloMosaic Idealize.ShloMosaic.ValueIdx

variable {α : Type}

/-- A column [a, 1] re-laid as the vector [a] reads, at i, the column at (i, 0): the row-major position is the same. -/
theorem shapeCast_a1_a_apply {a : ℕ} (v : (⟨2, ![a, 1]⟩ : Shape).Idx → α)
    (h : (⟨2, ![a, 1]⟩ : Shape).ShapeCasts ⟨1, ![a]⟩) (i : Fin a) :
    shapeCast ⟨1, ![a]⟩ v h (ix1 i) = v (ix2 i (0 : Fin 1)) :=
  shapeCast_apply v h _ _ (by
    rw [Shape.rowMajor_val_two, Shape.rowMajor_val_one]
    show i.val * 1 + 0 = i.val
    omega)

/-- The unit-width slice of a matrix [a, b] starting at column c reads, at (i, 0), the matrix at (i, c). -/
theorem slice_col_apply {a b : ℕ} (c : ℕ) (hc : c < b) (x : (⟨2, ![a, b]⟩ : Shape).Idx → α)
    (h : (⟨2, ![a, b]⟩ : Shape).Slices ![0, c] ⟨2, ![a, 1]⟩) (i : Fin a) (u : Fin 1) :
    extractStridedSlice ⟨2, ![a, 1]⟩ ![0, c] x h (ix2 i u) = x (ix2 i ⟨c, hc⟩) :=
  extractStridedSlice_apply _ x h _ _ (fun ax => by
    match ax with
    | ⟨0, _⟩ => show i.val = 0 + i.val; omega
    | ⟨1, _⟩ => show c = c + u.val; have := u.isLt; omega)

/-- A join of unit-width columns along the second axis reads, at (i, k), the k-th column at (i, 0). -/
theorem join_cols_apply {a n : ℕ} (xs : List ((s : Shape) × (s.Idx → α)))
    (h : Shape.Concatenates (xs.map (·.1)) ⟨2, ![a, n]⟩ (1 : Fin 2)) (i : Fin a) (k : Fin n)
    (hk : k.val < xs.length) (v : (⟨2, ![a, 1]⟩ : Shape).Idx → α) (hx : xs[k.val] = ⟨⟨2, ![a, 1]⟩, v⟩)
    (hpre : (((xs.take k.val).map (·.1)).map fun s : Shape =>
      if h : s.rank = (⟨2, ![a, n]⟩ : Shape).rank then s.size ((1 : Fin 2).cast h.symm) else 0).sum = k.val) :
    concatenate ⟨2, ![a, n]⟩ (1 : Fin 2) xs h (ix2 i k) = v (ix2 i (0 : Fin 1)) :=
  concatenate_apply_piece (1 : Fin 2) xs h (ix2 i k) k.val hk _ v hx rfl k.val hpre (ix2 i (0 : Fin 1))
    (fun b hb => by
      match b, hb with
      | ⟨0, _⟩, _ => rfl
      | ⟨1, _⟩, hb => exact absurd rfl hb)
    rfl

/-- A join of unit-thickness slabs [a, 1, b] along the middle axis reads, at (i, k, j), the k-th slab at (i, 0, j). -/
theorem join_mids_apply {a n b : ℕ} (xs : List ((s : Shape) × (s.Idx → α)))
    (h : Shape.Concatenates (xs.map (·.1)) ⟨3, ![a, n, b]⟩ (1 : Fin 3)) (i : Fin a) (k : Fin n) (j : Fin b)
    (hk : k.val < xs.length) (v : (⟨3, ![a, 1, b]⟩ : Shape).Idx → α) (hx : xs[k.val] = ⟨⟨3, ![a, 1, b]⟩, v⟩)
    (hpre : (((xs.take k.val).map (·.1)).map fun s : Shape =>
      if h : s.rank = (⟨3, ![a, n, b]⟩ : Shape).rank then s.size ((1 : Fin 3).cast h.symm) else 0).sum = k.val) :
    concatenate ⟨3, ![a, n, b]⟩ (1 : Fin 3) xs h (ix3 i k j) = v (ix3 i (0 : Fin 1) j) :=
  concatenate_apply_piece (1 : Fin 3) xs h (ix3 i k j) k.val hk _ v hx rfl k.val hpre (ix3 i (0 : Fin 1) j)
    (fun b hb => by
      match b, hb with
      | ⟨0, _⟩, _ => rfl
      | ⟨1, _⟩, hb => exact absurd rfl hb
      | ⟨2, _⟩, _ => rfl)
    rfl

end Cert.LibUnitColumns
-- ==== Proof.KernelRow.lean ====
/-
  One row of the kernel's two output blocks, as the per-Gaussian functions of that row of the input blocks.

  The body works on blocks of 8000 rows. It takes the quaternion block apart into its four columns, the scale
  block and the point block into three, the camera matrix into its nine entries, and from there on every value
  is a vector over the rows computed entry by entry; at the end the four (three) result vectors are put side by
  side as the columns of the output block. So row p of an output block depends on row p of each input block
  only, and is the value the algebra module names: the flat 2×2 covariance, and the camera-space point.
-/
import proofs.«101967_j2362232013506_2_alg».proof.Proof.Gen.KernelIdeal.Frame
import proofs.«101967_j2362232013506_2_alg».proof.Proof.Algebra
import proofs.«101967_j2362232013506_2_alg».proof.Proof.LibColumn
import proofs.«101967_j2362232013506_2_alg».proof.Proof.LibLaneSum
import proofs.«101967_j2362232013506_2_alg».proof.Proof.LibUnitColumns
import Idealize.ShloMosaic.Lib.Pipeline.Value
import Idealize.ShloMosaic.Lib.ValueIdx
import Idealize.ShloMosaic.PureOps.Ideal.Laws

set_option maxRecDepth 16384

noncomputable section

namespace Cert.KernelIdeal.RowValue

open Cert Cert.KernelIdeal Cert.KernelIdeal.Gen Idealize.ShloMosaic Idealize.ShloMosaic.ValueIdx

/-! ## The quaternion block, normalised row by row -/

/-- Each entry of the quaternion block divided by the length of its row. -/
theorem pay3_at (X2 : Vec Ideal S8000x4 .f32) (p : Fin 8000) (c : Fin 4) :
    k0_pay3 (F := Ideal) X2 (ix2 p c) = Splat.quat (fun c => X2 (ix2 p c)) c := by
  simp only [k0_pay3, divf_apply]
  rw [LibColumn.broadcastTo_a1_ab_apply]
  show Ideal.div _ (Ideal.sqrt (shapeCast S8000x1 _ shapeCasts_S8000_S8000x1 (ix2 p (0 : Fin 1)))) = _
  rw [LibColumn.shapeCast_a_a1_apply]
  exact congrArg (fun t => Ideal.div (X2 (ix2 p c)) (Ideal.sqrt t))
    (LibLaneSum.lane_sum_apply (mulf X2 X2) reduces_S8000x4_S8000 _ _ p)

/-- Its four columns, as vectors over the rows. -/
theorem pay4_at (X2 : Vec Ideal S8000x4 .f32) (p : Fin 8000) :
    k0_pay4 (F := Ideal) X2 (ix1 p) = k0_pay3 (F := Ideal) X2 (ix2 p (0 : Fin 4)) :=
  (LibUnitColumns.shapeCast_a1_a_apply _ _ p).trans (LibUnitColumns.slice_col_apply 0 (by decide) _ _ p 0)
theorem pay5_at (X2 : Vec Ideal S8000x4 .f32) (p : Fin 8000) :
    k0_pay5 (F := Ideal) X2 (ix1 p) = k0_pay3 (F := Ideal) X2 (ix2 p (1 : Fin 4)) :=
  (LibUnitColumns.shapeCast_a1_a_apply _ _ p).trans (LibUnitColumns.slice_col_apply 1 (by decide) _ _ p 0)
theorem pay6_at (X2 : Vec Ideal S8000x4 .f32) (p : Fin 8000) :
    k0_pay6 (F := Ideal) X2 (ix1 p) = k0_pay3 (F := Ideal) X2 (ix2 p (2 : Fin 4)) :=
  (LibUnitColumns.shapeCast_a1_a_apply _ _ p).trans (LibUnitColumns.slice_col_apply 2 (by decide) _ _ p 0)
theorem pay7_at (X2 : Vec Ideal S8000x4 .f32) (p : Fin 8000) :
    k0_pay7 (F := Ideal) X2 (ix1 p) = k0_pay3 (F := Ideal) X2 (ix2 p (3 : Fin 4)) :=
  (LibUnitColumns.shapeCast_a1_a_apply _ _ p).trans (LibUnitColumns.slice_col_apply 3 (by decide) _ _ p 0)

/-! ## The scale block -/

/-- Each entry of the scale block: its exponential, clamped at 10. -/
theorem pay8_at (X1 : Vec Ideal S8000x3 .f32) (p : Fin 8000) (c : Fin 3) :
    k0_pay8 (F := Ideal) X1 (ix2 p c) = Splat.scl (fun j => X1 (ix2 p j)) c := rfl

theorem pay9_at (X1 : Vec Ideal S8000x3 .f32) (p : Fin 8000) :
    k0_pay9 (F := Ideal) X1 (ix1 p) = k0_pay8 (F := Ideal) X1 (ix2 p (0 : Fin 3)) :=
  (LibUnitColumns.shapeCast_a1_a_apply _ _ p).trans (LibUnitColumns.slice_col_apply 0 (by decide) _ _ p 0)
theorem pay10_at (X1 : Vec Ideal S8000x3 .f32) (p : Fin 8000) :
    k0_pay10 (F := Ideal) X1 (ix1 p) = k0_pay8 (F := Ideal) X1 (ix2 p (1 : Fin 3)) :=
  (LibUnitColumns.shapeCast_a1_a_apply _ _ p).trans (LibUnitColumns.slice_col_apply 1 (by decide) _ _ p 0)
theorem pay11_at (X1 : Vec Ideal S8000x3 .f32) (p : Fin 8000) :
    k0_pay11 (F := Ideal) X1 (ix1 p) = k0_pay8 (F := Ideal) X1 (ix2 p (2 : Fin 3)) :=
  (LibUnitColumns.shapeCast_a1_a_apply _ _ p).trans (LibUnitColumns.slice_col_apply 2 (by decide) _ _ p 0)

/-! ## The point block's columns -/

theorem pay33_at (X0 : Vec Ideal S8000x3 .f32) (p : Fin 8000) :
    k0_pay33 (F := Ideal) X0 (ix1 p) = X0 (ix2 p (0 : Fin 3)) :=
  (LibUnitColumns.shapeCast_a1_a_apply _ _ p).trans (LibUnitColumns.slice_col_apply 0 (by decide) _ _ p 0)
theorem pay34_at (X0 : Vec Ideal S8000x3 .f32) (p : Fin 8000) :
    k0_pay34 (F := Ideal) X0 (ix1 p) = X0 (ix2 p (1 : Fin 3)) :=
  (LibUnitColumns.shapeCast_a1_a_apply _ _ p).trans (LibUnitColumns.slice_col_apply 1 (by decide) _ _ p 0)
theorem pay35_at (X0 : Vec Ideal S8000x3 .f32) (p : Fin 8000) :
    k0_pay35 (F := Ideal) X0 (ix1 p) = X0 (ix2 p (2 : Fin 3)) :=
  (LibUnitColumns.shapeCast_a1_a_apply _ _ p).trans (LibUnitColumns.slice_col_apply 2 (by decide) _ _ p 0)

/-! ## The camera's entries, taken out as scalars -/

/-- The entry (i, j) of the 3×3 matrix: the 1×1 slice at (i, j), read at its one position. -/
theorem entry_at (X3 : Vec Ideal S3x3 .f32) (i j : Fin 3) (h : S3x3.Slices ![i.val, j.val] S1x1)
    (hp : ∀ a, (![0, 0] : Fin 2 → Nat) a < S1x1.size a) :
    extractAt ![0, 0] (extractStridedSlice S1x1 ![i.val, j.val] X3 h) hp = X3 (ix2 i j) := by
  unfold extractAt
  exact extractStridedSlice_apply _ _ _ _ _ (fun ax => by match ax with | ⟨0, _⟩ => rfl | ⟨1, _⟩ => rfl)

theorem pay36_at (X3 : Vec Ideal S3x3 .f32) : k0_pay36 (F := Ideal) X3 = X3 (ix2 (0 : Fin 3) (0 : Fin 3)) := entry_at X3 0 0 _ _
theorem pay37_at (X3 : Vec Ideal S3x3 .f32) : k0_pay37 (F := Ideal) X3 = X3 (ix2 (0 : Fin 3) (1 : Fin 3)) := entry_at X3 0 1 _ _
theorem pay38_at (X3 : Vec Ideal S3x3 .f32) : k0_pay38 (F := Ideal) X3 = X3 (ix2 (0 : Fin 3) (2 : Fin 3)) := entry_at X3 0 2 _ _
theorem pay39_at (X3 : Vec Ideal S3x3 .f32) : k0_pay39 (F := Ideal) X3 = X3 (ix2 (1 : Fin 3) (0 : Fin 3)) := entry_at X3 1 0 _ _
theorem pay40_at (X3 : Vec Ideal S3x3 .f32) : k0_pay40 (F := Ideal) X3 = X3 (ix2 (1 : Fin 3) (1 : Fin 3)) := entry_at X3 1 1 _ _
theorem pay41_at (X3 : Vec Ideal S3x3 .f32) : k0_pay41 (F := Ideal) X3 = X3 (ix2 (1 : Fin 3) (2 : Fin 3)) := entry_at X3 1 2 _ _
theorem pay42_at (X3 : Vec Ideal S3x3 .f32) : k0_pay42 (F := Ideal) X3 = X3 (ix2 (2 : Fin 3) (0 : Fin 3)) := entry_at X3 2 0 _ _
theorem pay43_at (X3 : Vec Ideal S3x3 .f32) : k0_pay43 (F := Ideal) X3 = X3 (ix2 (2 : Fin 3) (1 : Fin 3)) := entry_at X3 2 1 _ _
theorem pay44_at (X3 : Vec Ideal S3x3 .f32) : k0_pay44 (F := Ideal) X3 = X3 (ix2 (2 : Fin 3) (2 : Fin 3)) := entry_at X3 2 2 _ _

/-- The entry i of the translation. -/
theorem tentry_at (X4 : Vec Ideal S3 .f32) (i : Fin 3) (h : S3.Slices ![i.val] S1)
    (hp : ∀ a, (![0] : Fin 1 → Nat) a < S1.size a) :
    extractAt ![0] (extractStridedSlice S1 ![i.val] X4 h) hp = X4 (ix1 i) := by
  unfold extractAt
  exact extractStridedSlice_apply _ _ _ _ _ (fun ax => by match ax with | ⟨0, _⟩ => rfl)

theorem pay45_at (X4 : Vec Ideal S3 .f32) : k0_pay45 (F := Ideal) X4 = X4 (ix1 (0 : Fin 3)) := tentry_at X4 0 _ _
theorem pay46_at (X4 : Vec Ideal S3 .f32) : k0_pay46 (F := Ideal) X4 = X4 (ix1 (1 : Fin 3)) := tentry_at X4 1 _ _
theorem pay47_at (X4 : Vec Ideal S3 .f32) : k0_pay47 (F := Ideal) X4 = X4 (ix1 (2 : Fin 3)) := tentry_at X4 2 _ _

/-- The focal length. -/
theorem pay48_at (X5 : Vec Ideal S1 .f32) : k0_pay48 (F := Ideal) X5 = X5 (ix1 (0 : Fin 1)) := by
  unfold k0_pay48 extractAt
  exact congrArg X5 (funext fun a => Fin.ext (by match a with | ⟨0, _⟩ => rfl))

/-! ## The output blocks' columns -/

/-- The point block: its three result vectors side by side. -/
theorem pay2_at0 (v159 v169 v179 : FVec Ideal S8000 .f32) (p : Fin 8000) :
    k0_pay2 (F := Ideal) v159 v169 v179 (ix2 p (0 : Fin 3)) = v159 (ix1 p) := by
  unfold k0_pay2
  exact (LibUnitColumns.join_cols_apply _ _ p (0 : Fin 3) (by simp) _ rfl rfl).trans (LibColumn.shapeCast_a_a1_apply _ _ p 0)
theorem pay2_at1 (v159 v169 v179 : FVec Ideal S8000 .f32) (p : Fin 8000) :
    k0_pay2 (F := Ideal) v159 v169 v179 (ix2 p (1 : Fin 3)) = v169 (ix1 p) := by
  unfold k0_pay2
  exact (LibUnitColumns.join_cols_apply _ _ p (1 : Fin 3) (by simp) _ rfl rfl).trans (LibColumn.shapeCast_a_a1_apply _ _ p 0)
theorem pay2_at2 (v159 v169 v179 : FVec Ideal S8000 .f32) (p : Fin 8000) :
    k0_pay2 (F := Ideal) v159 v169 v179 (ix2 p (2 : Fin 3)) = v179 (ix1 p) := by
  unfold k0_pay2
  exact (LibUnitColumns.join_cols_apply _ _ p (2 : Fin 3) (by simp) _ rfl rfl).trans (LibColumn.shapeCast_a_a1_apply _ _ p 0)

/-- The covariance block: four result vectors side by side, the last two finished just before the join. -/
theorem pay1_at0 (v210 v215 v220 v225 v245 v250 v255 v262 v267 v270 : FVec Ideal S8000 .f32) (p : Fin 8000) :
    k0_pay1 (F := Ideal) v210 v215 v220 v225 v245 v250 v255 v262 v267 v270 (ix2 p (0 : Fin 4)) = v262 (ix1 p) := by
  unfold k0_pay1
  exact (LibUnitColumns.join_cols_apply _ _ p (0 : Fin 4) (by simp) _ rfl rfl).trans (LibColumn.shapeCast_a_a1_apply _ _ p 0)
theorem pay1_at1 (v210 v215 v220 v225 v245 v250 v255 v262 v267 v270 : FVec Ideal S8000 .f32) (p : Fin 8000) :
    k0_pay1 (F := Ideal) v210 v215 v220 v225 v245 v250 v255 v262 v267 v270 (ix2 p (1 : Fin 4)) = v267 (ix1 p) := by
  unfold k0_pay1
  exact (LibUnitColumns.join_cols_apply _ _ p (1 : Fin 4) (by simp) _ rfl rfl).trans (LibColumn.shapeCast_a_a1_apply _ _ p 0)
theorem pay1_at2 (v210 v215 v220 v225 v245 v250 v255 v262 v267 v270 : FVec Ideal S8000 .f32) (p : Fin 8000) :
    k0_pay1 (F := Ideal) v210 v215 v220 v225 v245 v250 v255 v262 v267 v270 (ix2 p (2 : Fin 4))
      = v270 (ix1 p) + v255 (ix1 p) * v210 (ix1 p) := by
  unfold k0_pay1
  exact (LibUnitColumns.join_cols_apply _ _ p (2 : Fin 4) (by simp) _ rfl rfl).trans (LibColumn.shapeCast_a_a1_apply _ _ p 0)
theorem pay1_at3 (v210 v215 v220 v225 v245 v250 v255 v262 v267 v270 : FVec Ideal S8000 .f32) (p : Fin 8000) :
    k0_pay1 (F := Ideal) v210 v215 v220 v225 v245 v250 v255 v262 v267 v270 (ix2 p (3 : Fin 4))
      = ((v245 (ix1 p) * v215 (ix1 p) + v250 (ix1 p) * v220 (ix1 p)) + v255 (ix1 p) * v225 (ix1 p)) + Splat.wDil := by
  unfold k0_pay1
  exact (LibUnitColumns.join_cols_apply _ _ p (3 : Fin 4) (by simp) _ rfl rfl).trans (LibColumn.shapeCast_a_a1_apply _ _ p 0)

/-! ## A row of each output block -/

theorem hz2 : (![0, 0] : Fin 2 → Nat) = fun _ => 0 := funext fun a => by fin_cases a <;> rfl
theorem hz1 : (![0] : Fin 1 → Nat) = fun _ => 0 := funext fun a => by fin_cases a; rfl

set_option maxHeartbeats 4000000 in
/-- Row p of the covariance block, first column. -/
theorem out6_at0 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_6 (F := Ideal) X0 X1 X2 X3 X4 X5 (ix2 p (0 : Fin 4)) =
      Splat.cflat (fun k => X2 (ix2 p k)) (fun j => X1 (ix2 p j)) (fun j => X0 (ix2 p j)) (fun i j => X3 (ix2 i j))
        (fun i => X4 (ix1 i)) (X5 (ix1 (0 : Fin 1))) 0 := by
  unfold out0_6
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay1_at0 _ _ _ _ _ _ _ _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

set_option maxHeartbeats 4000000 in
theorem out6_at1 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_6 (F := Ideal) X0 X1 X2 X3 X4 X5 (ix2 p (1 : Fin 4)) =
      Splat.cflat (fun k => X2 (ix2 p k)) (fun j => X1 (ix2 p j)) (fun j => X0 (ix2 p j)) (fun i j => X3 (ix2 i j))
        (fun i => X4 (ix1 i)) (X5 (ix1 (0 : Fin 1))) 1 := by
  unfold out0_6
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay1_at1 _ _ _ _ _ _ _ _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

set_option maxHeartbeats 4000000 in
theorem out6_at2 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_6 (F := Ideal) X0 X1 X2 X3 X4 X5 (ix2 p (2 : Fin 4)) =
      Splat.cflat (fun k => X2 (ix2 p k)) (fun j => X1 (ix2 p j)) (fun j => X0 (ix2 p j)) (fun i j => X3 (ix2 i j))
        (fun i => X4 (ix1 i)) (X5 (ix1 (0 : Fin 1))) 2 := by
  unfold out0_6
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay1_at2 _ _ _ _ _ _ _ _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

set_option maxHeartbeats 4000000 in
theorem out6_at3 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_6 (F := Ideal) X0 X1 X2 X3 X4 X5 (ix2 p (3 : Fin 4)) =
      Splat.cflat (fun k => X2 (ix2 p k)) (fun j => X1 (ix2 p j)) (fun j => X0 (ix2 p j)) (fun i j => X3 (ix2 i j))
        (fun i => X4 (ix1 i)) (X5 (ix1 (0 : Fin 1))) 3 := by
  unfold out0_6
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay1_at3 _ _ _ _ _ _ _ _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

/-- Row p of the covariance block is the flat 2×2 covariance of that row's quaternion, scales and point. -/
theorem out6_at (X0 X1 : Vec Ideal S8000x3 .f32) (X2 : Vec Ideal S8000x4 .f32) (X3 : Vec Ideal S3x3 .f32)
    (X4 : Vec Ideal S3 .f32) (X5 : Vec Ideal S1 .f32) (p : Fin 8000) (c : Fin 4) :
    out0_6 (F := Ideal) X0 X1 X2 X3 X4 X5 (ix2 p c) =
      Splat.cflat (fun k => X2 (ix2 p k)) (fun j => X1 (ix2 p j)) (fun j => X0 (ix2 p j)) (fun i j => X3 (ix2 i j))
        (fun i => X4 (ix1 i)) (X5 (ix1 (0 : Fin 1))) c := by
  match c with
  | ⟨0, _⟩ => exact out6_at0 X0 X1 X2 X3 X4 X5 p
  | ⟨1, _⟩ => exact out6_at1 X0 X1 X2 X3 X4 X5 p
  | ⟨2, _⟩ => exact out6_at2 X0 X1 X2 X3 X4 X5 p
  | ⟨3, _⟩ => exact out6_at3 X0 X1 X2 X3 X4 X5 p

set_option maxHeartbeats 4000000 in
theorem out7_at0 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_7 (F := Ideal) X0 X1 X2 X3 X4 X5 (ix2 p (0 : Fin 3)) =
      Splat.cam (fun j => X0 (ix2 p j)) (fun i j => X3 (ix2 i j)) (fun i => X4 (ix1 i)) 0 := by
  unfold out0_7
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay2_at0 _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

set_option maxHeartbeats 4000000 in
theorem out7_at1 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_7 (F := Ideal) X0 X1 X2 X3 X4 X5 (ix2 p (1 : Fin 3)) =
      Splat.cam (fun j => X0 (ix2 p j)) (fun i j => X3 (ix2 i j)) (fun i => X4 (ix1 i)) 1 := by
  unfold out0_7
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay2_at1 _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

set_option maxHeartbeats 4000000 in
theorem out7_at2 (X0 X1 : Vec Ideal S8000x3 .f32) (X2 : Vec Ideal S8000x4 .f32) (X3 : Vec Ideal S3x3 .f32)
    (X4 : Vec Ideal S3 .f32) (X5 : Vec Ideal S1 .f32) (p : Fin 8000) :
    out0_7 (F := Ideal) X0 X1 X2 X3 X4 X5 (ix2 p (2 : Fin 3)) =
      Splat.cam (fun j => X0 (ix2 p j)) (fun i j => X3 (ix2 i j)) (fun i => X4 (ix1 i)) 2 := by
  unfold out0_7
  rw [View.canon_unit_zero hz2]
  simp only [View.ld_unit_zero (S := S8000x3) hz2, View.ld_unit_zero (S := S8000x4) hz2,
    View.ld_unit_zero (S := S3x3) hz2, View.ld_unit_zero (S := S3) hz1, View.ld_unit_zero (S := S1) hz1]
  refine (pay2_at2 _ _ _ p).trans ?_
  simp only [k0_pay12, k0_pay13, k0_pay14, k0_pay15, k0_pay16, k0_pay17, k0_pay18, k0_pay19, k0_pay20, k0_pay21,
    k0_pay22, k0_pay23, k0_pay24, k0_pay25, k0_pay26, k0_pay27, k0_pay28, k0_pay29, k0_pay30, k0_pay31, k0_pay32,
    k0_pay49, k0_pay50, k0_pay51, k0_pay52, k0_pay53, k0_pay54, k0_pay55, k0_pay56, k0_pay57, k0_pay58, k0_pay59,
    k0_pay60, k0_pay61, k0_pay62, k0_pay63, k0_pay64, k0_pay65, k0_pay66, k0_pay67, k0_pay68, k0_pay69, k0_pay70,
    k0_pay71, k0_pay72, mulf_apply, addf_apply, subf_apply, divf_apply, broadcast_apply,
    pay4_at, pay5_at, pay6_at, pay7_at, pay3_at, pay9_at, pay10_at, pay11_at, pay8_at, pay33_at, pay34_at, pay35_at,
    pay36_at, pay37_at, pay38_at, pay39_at, pay40_at, pay41_at, pay42_at, pay43_at, pay44_at, pay45_at, pay46_at,
    pay47_at, pay48_at]
  rfl

/-- Row p of the point block is that row's point in camera space. -/
theorem out7_at (X0 X1 : Vec Ideal S8000x3 .f32) (X2 : Vec Ideal S8000x4 .f32) (X3 : Vec Ideal S3x3 .f32)
    (X4 : Vec Ideal S3 .f32) (X5 : Vec Ideal S1 .f32) (p : Fin 8000) (c : Fin 3) :
    out0_7 (F := Ideal) X0 X1 X2 X3 X4 X5 (ix2 p c) =
      Splat.cam (fun j => X0 (ix2 p j)) (fun i j => X3 (ix2 i j)) (fun i => X4 (ix1 i)) c := by
  match c with
  | ⟨0, _⟩ => exact out7_at0 X0 X1 X2 X3 X4 X5 p
  | ⟨1, _⟩ => exact out7_at1 X0 X1 X2 X3 X4 X5 p
  | ⟨2, _⟩ => exact out7_at2 X0 X1 X2 X3 X4 X5 p

end Cert.KernelIdeal.RowValue

end
-- ==== Proof.Spec.lean ====
/-
  The two results as whole arrays: one function of the argument arrays, index by index.

  Row n of the flat covariance array [N, 4] is the flat 2×2 covariance of Gaussian n; re-laid as [N, 2, 2] its
  entry (n, i, l) is the flat entry 2 i + l. Row n of the point array [N, 3] is Gaussian n's point in camera space.
-/
import proofs.«101967_j2362232013506_2_alg».proof.Proof.Algebra
import Idealize.ShloMosaic.Lib.ValueIdx

noncomputable section

namespace Cert.Splat

open Idealize.ShloMosaic Idealize.ShloMosaic.ValueIdx

/-- The Gaussian a rank-2 index belongs to, and its column. -/
abbrev rowOf2 {k : ℕ} (i : (⟨2, ![4000000, k]⟩ : Shape).Idx) : Fin 4000000 := ⟨(i 0).val, (i 0).isLt⟩
abbrev colOf2 {k : ℕ} (i : (⟨2, ![4000000, k]⟩ : Shape).Idx) : Fin k := ⟨(i 1).val, (i 1).isLt⟩

variable (A0 A1 : (⟨2, ![4000000, 3]⟩ : Shape).Idx → EReal) (A2 : (⟨2, ![4000000, 4]⟩ : Shape).Idx → EReal)
  (A3 : (⟨2, ![3, 3]⟩ : Shape).Idx → EReal) (A4 : (⟨1, ![3]⟩ : Shape).Idx → EReal) (A5 : (⟨1, ![1]⟩ : Shape).Idx → EReal)

/-- The flat covariance of Gaussian n from row n of the points A0, the log-scales A1, the quaternions A2, and the
    camera A3, A4, A5. -/
def flatAt (n : Fin 4000000) : Fin 4 → EReal :=
  cflat (fun k => A2 (ix2 n k)) (fun k => A1 (ix2 n k)) (fun k => A0 (ix2 n k)) (fun a b => A3 (ix2 a b))
    (fun a => A4 (ix1 a)) (A5 (ix1 (0 : Fin 1)))

/-- The camera-space point of Gaussian n. -/
def camAt (n : Fin 4000000) : Fin 3 → EReal :=
  cam (fun k => A0 (ix2 n k)) (fun a b => A3 (ix2 a b)) (fun a => A4 (ix1 a))

/-- The flat covariance array [N, 4]. -/
def Gflat : (⟨2, ![4000000, 4]⟩ : Shape).Idx → EReal := fun i => flatAt A0 A1 A2 A3 A4 A5 (rowOf2 i) (colOf2 i)

/-- The point array [N, 3]. -/
def Gcam : (⟨2, ![4000000, 3]⟩ : Shape).Idx → EReal := fun i => camAt A0 A3 A4 (rowOf2 i) (colOf2 i)

/-- The covariance array [N, 2, 2]: entry (n, i, l) is the flat entry 2 i + l. -/
def Gcov : (⟨3, ![4000000, 2, 2]⟩ : Shape).Idx → EReal := fun i =>
  flatAt A0 A1 A2 A3 A4 A5 ⟨(i 0).val, (i 0).isLt⟩
    ⟨2 * (i 1).val + (i 2).val, by
      have h1 : (i 1).val < 2 := (i 1).isLt
      have h2 : (i 2).val < 2 := (i 2).isLt
      omega⟩

end Cert.Splat

end
-- ==== Proof.KernelArray.lean ====
/-
  From blocks to arrays: what the kernel's run leaves in its two result arrays.

  The grid has 500 points; point t stages rows 8000 t … 8000 t + 7999 of the three per-Gaussian arrays and the
  whole of the camera's three small arrays, and writes back the same rows of the two results. So row p of a
  block at point t is row 8000 t + p of its array; what point t writes back is the block at t of one whole-array
  function; the 500 blocks tile the arrays; and after the run the arrays hold that function. The lines after the
  call re-lay the flat [N, 4] covariance as [N, 2, 2].
-/
import proofs.«101967_j2362232013506_2_alg».proof.Proof.Gen.KernelIdeal.Frame
import proofs.«101967_j2362232013506_2_alg».proof.Proof.KernelRow
import proofs.«101967_j2362232013506_2_alg».proof.Proof.Spec
import Idealize.ShloMosaic.Lib.Pipeline.Value
import Idealize.ShloMosaic.Lib.StableHlo.Run
import Idealize.ShloMosaic.Lib.Tactic

set_option maxRecDepth 16384

noncomputable section

namespace Cert.KernelIdeal.ArrayValue

open Cert Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## Where each window's block sits -/

/-- The printed index maps, decided over the 500 points: the per-Gaussian windows are at block row t, column
    block 0; the camera's windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 1) = 0
    ∧ win0_5.index t (0 : Fin 1) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row p of the block at point t is row 8000 t + p of the array. -/
def grow (t : Fin cfg0.N) (p : Fin 8000) : Fin 4000000 :=
  ⟨t.val * 8000 + p.val, by have ht : t.val < 500 := t.isLt; have hp := p.isLt; omega⟩

theorem iblk0_at (c : Dev nD) (t : Fin cfg0.N) (p : Fin 8000) (k : Fin 3) :
    iblk m c 0 t (ix2 p k) = (m ((c : Thread nD τ).loc main_arg0)) (ix2 (grow t p) k) := by
  obtain ⟨e0, e1, -⟩ := idx_facts t
  show V m c main_arg0 (((cfg0.win 0).blk t).view.emb (ix2 p k)) = _
  refine congrArg _ (funext fun a => Fin.ext ?_)
  match a with
  | ⟨0, _⟩ => show win0_0.index t (0 : Fin 2) * 8000 + 1 * p.val = t.val * 8000 + p.val; omega
  | ⟨1, _⟩ => show win0_0.index t (1 : Fin 2) * 3 + 1 * k.val = k.val; omega

theorem iblk1_at (c : Dev nD) (t : Fin cfg0.N) (p : Fin 8000) (k : Fin 3) :
    iblk m c 1 t (ix2 p k) = (m ((c : Thread nD τ).loc main_arg1)) (ix2 (grow t p) k) := by
  obtain ⟨-, -, e0, e1, -⟩ := idx_facts t
  show V m c main_arg1 (((cfg0.win 1).blk t).view.emb (ix2 p k)) = _
  refine congrArg _ (funext fun a => Fin.ext ?_)
  match a with
  | ⟨0, _⟩ => show win0_1.index t (0 : Fin 2) * 8000 + 1 * p.val = t.val * 8000 + p.val; omega
  | ⟨1, _⟩ => show win0_1.index t (1 : Fin 2) * 3 + 1 * k.val = k.val; omega

theorem iblk2_at (c : Dev nD) (t : Fin cfg0.N) (p : Fin 8000) (k : Fin 4) :
    iblk m c 2 t (ix2 p k) = (m ((c : Thread nD τ).loc main_arg2)) (ix2 (grow t p) k) := by
  obtain ⟨-, -, -, -, e0, e1, -⟩ := idx_facts t
  show V m c main_arg2 (((cfg0.win 2).blk t).view.emb (ix2 p k)) = _
  refine congrArg _ (funext fun a => Fin.ext ?_)
  match a with
  | ⟨0, _⟩ => show win0_2.index t (0 : Fin 2) * 8000 + 1 * p.val = t.val * 8000 + p.val; omega
  | ⟨1, _⟩ => show win0_2.index t (1 : Fin 2) * 4 + 1 * k.val = k.val; omega

theorem iblk3_at (c : Dev nD) (t : Fin cfg0.N) (i j : Fin 3) :
    iblk m c 3 t (ix2 i j) = (m ((c : Thread nD τ).loc main_arg3)) (ix2 i j) := by
  obtain ⟨-, -, -, -, -, -, e0, e1, -⟩ := idx_facts t
  show V m c main_arg3 (((cfg0.win 3).blk t).view.emb (ix2 i j)) = _
  refine congrArg _ (funext fun a => Fin.ext ?_)
  match a with
  | ⟨0, _⟩ => show win0_3.index t (0 : Fin 2) * 3 + 1 * i.val = i.val; omega
  | ⟨1, _⟩ => show win0_3.index t (1 : Fin 2) * 3 + 1 * j.val = j.val; omega

theorem iblk4_at (c : Dev nD) (t : Fin cfg0.N) (i : Fin 3) :
    iblk m c 4 t (ix1 i) = (m ((c : Thread nD τ).loc main_arg4)) (ix1 i) := by
  obtain ⟨-, -, -, -, -, -, -, -, e0, -⟩ := idx_facts t
  show V m c main_arg4 (((cfg0.win 4).blk t).view.emb (ix1 i)) = _
  refine congrArg _ (funext fun a => Fin.ext ?_)
  match a with
  | ⟨0, _⟩ => show win0_4.index t (0 : Fin 1) * 3 + 1 * i.val = i.val; omega

theorem iblk5_at (c : Dev nD) (t : Fin cfg0.N) (i : Fin 1) :
    iblk m c 5 t (ix1 i) = (m ((c : Thread nD τ).loc main_arg5)) (ix1 i) := by
  obtain ⟨-, -, -, -, -, -, -, -, -, e0, -⟩ := idx_facts t
  show V m c main_arg5 (((cfg0.win 5).blk t).view.emb (ix1 i)) = _
  refine congrArg _ (funext fun a => Fin.ext ?_)
  match a with
  | ⟨0, _⟩ => show win0_5.index t (0 : Fin 1) * 1 + 1 * i.val = i.val; omega

/-! ## What a point writes back -/

/-- Point t writes back block t of the flat covariance array. -/
theorem flushed6_eq (c : Dev nD) (t : Fin cfg0.N) :
    (dats m 0 c).flushed 6 t = ((cfg0.win 6).blk t).view.read (Elt Ideal)
      (Splat.Gflat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) := by
  show (cfg0.win 6).cut (grid0.coords t) ((dats m 0 c).after 6 t) = _
  rw [after0_6]
  funext j
  obtain ⟨p, q, rfl⟩ : ∃ (p : Fin 8000) (q : Fin 4), j = ix2 p q := ⟨j 0, j 1, eq_ix2 j⟩
  obtain ⟨-, -, -, -, -, -, -, -, -, -, e0, e1, -⟩ := idx_facts t
  show out0_6 (iblk m c 0 t) (iblk m c 1 t) (iblk m c 2 t) (iblk m c 3 t) (iblk m c 4 t) (iblk m c 5 t) (ix2 p q)
    = Splat.flatAt (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
        (Splat.rowOf2 (((cfg0.win 6).blk t).view.emb (ix2 p q))) (Splat.colOf2 (((cfg0.win 6).blk t).view.emb (ix2 p q)))
  refine (RowValue.out6_at _ _ _ _ _ _ p q).trans ?_
  have hrow : Splat.rowOf2 (((cfg0.win 6).blk t).view.emb (ix2 p q)) = grow t p :=
    Fin.ext (by show win0_6.index t (0 : Fin 2) * 8000 + 1 * p.val = t.val * 8000 + p.val; omega)
  have hcol : Splat.colOf2 (((cfg0.win 6).blk t).view.emb (ix2 p q)) = q :=
    Fin.ext (by show win0_6.index t (1 : Fin 2) * 4 + 1 * q.val = q.val; omega)
  rw [hrow, hcol]
  have h0 : (fun k => iblk m c 0 t (ix2 p k)) = fun k => (m ((c : Thread nD τ).loc main_arg0)) (ix2 (grow t p) k) := funext fun k => iblk0_at m c t p k
  have h1 : (fun k => iblk m c 1 t (ix2 p k)) = fun k => (m ((c : Thread nD τ).loc main_arg1)) (ix2 (grow t p) k) := funext fun k => iblk1_at m c t p k
  have h2 : (fun k => iblk m c 2 t (ix2 p k)) = fun k => (m ((c : Thread nD τ).loc main_arg2)) (ix2 (grow t p) k) := funext fun k => iblk2_at m c t p k
  have h3 : (fun i j => iblk m c 3 t (ix2 i j)) = fun i j => (m ((c : Thread nD τ).loc main_arg3)) (ix2 i j) := funext fun i => funext fun j => iblk3_at m c t i j
  have h4 : (fun i => iblk m c 4 t (ix1 i)) = fun i => (m ((c : Thread nD τ).loc main_arg4)) (ix1 i) := funext fun i => iblk4_at m c t i
  have h5 : iblk m c 5 t (ix1 (0 : Fin 1)) = (m ((c : Thread nD τ).loc main_arg5)) (ix1 (0 : Fin 1)) := iblk5_at m c t 0
  rw [h0, h1, h2, h3, h4, h5]
  rfl

/-- Point t writes back block t of the point array. -/
theorem flushed7_eq (c : Dev nD) (t : Fin cfg0.N) :
    (dats m 0 c).flushed 7 t = ((cfg0.win 7).blk t).view.read (Elt Ideal)
      (Splat.Gcam (m ((c : Thread nD τ).loc main_arg0)) (m ((c : Thread nD τ).loc main_arg3)) (m ((c : Thread nD τ).loc main_arg4))) := by
  show (cfg0.win 7).cut (grid0.coords t) ((dats m 0 c).after 7 t) = _
  rw [after0_7]
  funext j
  obtain ⟨p, q, rfl⟩ : ∃ (p : Fin 8000) (q : Fin 3), j = ix2 p q := ⟨j 0, j 1, eq_ix2 j⟩
  obtain ⟨-, -, -, -, -, -, -, -, -, -, -, -, e0, e1⟩ := idx_facts t
  show out0_7 (iblk m c 0 t) (iblk m c 1 t) (iblk m c 2 t) (iblk m c 3 t) (iblk m c 4 t) (iblk m c 5 t) (ix2 p q)
    = Splat.camAt (m ((c : Thread nD τ).loc main_arg0)) (m ((c : Thread nD τ).loc main_arg3)) (m ((c : Thread nD τ).loc main_arg4))
        (Splat.rowOf2 (((cfg0.win 7).blk t).view.emb (ix2 p q))) (Splat.colOf2 (((cfg0.win 7).blk t).view.emb (ix2 p q)))
  refine (RowValue.out7_at _ _ _ _ _ _ p q).trans ?_
  have hrow : Splat.rowOf2 (((cfg0.win 7).blk t).view.emb (ix2 p q)) = grow t p :=
    Fin.ext (by show win0_7.index t (0 : Fin 2) * 8000 + 1 * p.val = t.val * 8000 + p.val; omega)
  have hcol : Splat.colOf2 (((cfg0.win 7).blk t).view.emb (ix2 p q)) = q :=
    Fin.ext (by show win0_7.index t (1 : Fin 2) * 3 + 1 * q.val = q.val; omega)
  rw [hrow, hcol]
  have h0 : (fun k => iblk m c 0 t (ix2 p k)) = fun k => (m ((c : Thread nD τ).loc main_arg0)) (ix2 (grow t p) k) := funext fun k => iblk0_at m c t p k
  have h3 : (fun i j => iblk m c 3 t (ix2 i j)) = fun i j => (m ((c : Thread nD τ).loc main_arg3)) (ix2 i j) := funext fun i => funext fun j => iblk3_at m c t i j
  have h4 : (fun i => iblk m c 4 t (ix1 i)) = fun i => (m ((c : Thread nD τ).loc main_arg4)) (ix1 i) := funext fun i => iblk4_at m c t i
  rw [h0, h3, h4]
  rfl

/-! ## The blocks tile the arrays -/

/-- An index of the flat covariance array is in point t's block iff each coordinate is in the block's range. -/
theorem mem_blk6 (t : Fin cfg0.N) (i : S4000000x4.Idx) :
    i ∈ ((cfg0.win 6).blk t).view.set ↔ ∀ a : Fin 2, win0_6.index t a * S8000x4.size a ≤ (i a).val ∧ (i a).val < win0_6.index t a * S8000x4.size a + S8000x4.size a := by
  show i ∈ ((View.whole main_v0_0).slice (win0_6.rect t)).set ↔ _
  rw [View.set_slice_whole, Rect.mem_set_unit]
  exact Iff.rfl

theorem mem_blk7 (t : Fin cfg0.N) (i : S4000000x3.Idx) :
    i ∈ ((cfg0.win 7).blk t).view.set ↔ ∀ a : Fin 2, win0_7.index t a * S8000x3.size a ≤ (i a).val ∧ (i a).val < win0_7.index t a * S8000x3.size a + S8000x3.size a := by
  show i ∈ ((View.whole main_v0_1).slice (win0_7.rect t)).set ↔ _
  rw [View.set_slice_whole, Rect.mem_set_unit]
  exact Iff.rfl

/-- Row r of the flat covariance array is in the block of point r / 8000. -/
theorem cover6 (i : S4000000x4.Idx) : ∃ t : Fin cfg0.N, (cfg0.win 6).flush t = true ∧ i ∈ ((cfg0.win 6).blk t).view.set := by
  have hi0 : (i 0).val < 4000000 := (i 0).isLt
  have hi1 : (i 1).val < 4 := (i 1).isLt
  let t : Fin cfg0.N := ⟨(i 0).val / 8000, by show (i 0).val / 8000 < 500; omega⟩
  obtain ⟨-, -, -, -, -, -, -, -, -, -, e0, e1, -⟩ := idx_facts t
  have ht : t.val = (i 0).val / 8000 := rfl
  refine ⟨t, flush0_6 t, ?_⟩
  rw [mem_blk6]
  intro a
  match a with
  | ⟨0, _⟩ => show win0_6.index t (0 : Fin 2) * 8000 ≤ (i 0).val ∧ (i 0).val < win0_6.index t (0 : Fin 2) * 8000 + 8000; omega
  | ⟨1, _⟩ => show win0_6.index t (1 : Fin 2) * 4 ≤ (i 1).val ∧ (i 1).val < win0_6.index t (1 : Fin 2) * 4 + 4; omega

theorem cover7 (i : S4000000x3.Idx) : ∃ t : Fin cfg0.N, (cfg0.win 7).flush t = true ∧ i ∈ ((cfg0.win 7).blk t).view.set := by
  have hi0 : (i 0).val < 4000000 := (i 0).isLt
  have hi1 : (i 1).val < 3 := (i 1).isLt
  let t : Fin cfg0.N := ⟨(i 0).val / 8000, by show (i 0).val / 8000 < 500; omega⟩
  obtain ⟨-, -, -, -, -, -, -, -, -, -, -, -, e0, e1⟩ := idx_facts t
  have ht : t.val = (i 0).val / 8000 := rfl
  refine ⟨t, flush0_7 t, ?_⟩
  rw [mem_blk7]
  intro a
  match a with
  | ⟨0, _⟩ => show win0_7.index t (0 : Fin 2) * 8000 ≤ (i 0).val ∧ (i 0).val < win0_7.index t (0 : Fin 2) * 8000 + 8000; omega
  | ⟨1, _⟩ => show win0_7.index t (1 : Fin 2) * 3 ≤ (i 1).val ∧ (i 1).val < win0_7.index t (1 : Fin 2) * 3 + 3; omega

/-! ## The arrays after the run -/

/-- The flat covariance array after the run. -/
theorem final6 (c : Dev nD) : (dats m 0 c).arrAt 6 cfg0.N = Splat.Gflat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (dats m 0 c).arrAt_eq_of_cover 6 _ (fun t _ => flushed6_eq m c t) cover6

/-- The point array after the run. -/
theorem final7 (c : Dev nD) : (dats m 0 c).arrAt 7 cfg0.N = Splat.Gcam (m ((c : Thread nD τ).loc main_arg0)) (m ((c : Thread nD τ).loc main_arg3)) (m ((c : Thread nD τ).loc main_arg4)) :=
  (dats m 0 c).arrAt_eq_of_cover 7 _ (fun t _ => flushed7_eq m c t) cover7

/-- The flat array [N, 4] re-laid as [N, 2, 2]: entry (n, i, l) is the flat entry 2 i + l. -/
theorem relaid (A : S4000000x4.Idx → EReal) (i : S4000000x2x2.Idx) :
    shapeCast S4000000x2x2 A shapeCasts_S4000000x4_S4000000x2x2 i
      = A (ix2 ⟨(i 0).val, (i 0).isLt⟩ ⟨2 * (i 1).val + (i 2).val, by
          have h1 : (i 1).val < 2 := (i 1).isLt
          have h2 : (i 2).val < 2 := (i 2).isLt
          omega⟩) :=
  shapeCast_apply A _ i _ (by
    have h1 : (i 1).val < 2 := (i 1).isLt
    have h2 : (i 2).val < 2 := (i 2).isLt
    rw [Shape.rowMajor_val_two, Shape.rowMajor_val_three]
    show (i 0).val * 4 + (2 * (i 1).val + (i 2).val) = ((i 0).val * 2 + (i 1).val) * 2 + (i 2).val
    omega)

/-- The line after the call: the result array is the flat covariance array re-laid. -/
theorem tail_v1 (c : Dev nD) :
    Pipeline.afterTail₀ cfgs (dats m) 0 (V0 m) [hostOps1] c main_v1
      = Splat.Gcov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  unfold Pipeline.afterTail₀
  show StableHlo.after hostOps1 _ (Proc.devRef .tc main_v1) = _
  after_results
  funext i
  have hA : Pipeline.withArrays (cfgs 0).spec c (V0 m c) (fun w => (dats m 0 c).arrAt w (cfgs 0).N)
      (Proc.devRef .tc main_v0_0) = (dats m 0 c).arrAt 6 cfg0.N :=
    Pipeline.withArrays_arr spec0 launch0.win.arr_inj c _ _ 6
  show shapeCast S4000000x2x2 (Pipeline.withArrays (cfgs 0).spec c (V0 m c)
      (fun w => (dats m 0 c).arrAt w (cfgs 0).N) (Proc.devRef .tc main_v0_0)) shapeCasts_S4000000x4_S4000000x2x2 i = _
  rw [hA, final6, relaid]
  rfl

/-! ## The run, read -/

/-- Every weakly fair execution of the kernel's program terminates with the covariance array and the point array
    at their whole-array functions of the arguments, and the arguments unchanged. -/
theorem run : θ_run defs (onTc (τ := τ) (main (F := Ideal))) ⟨m, fun _ => 0, ρ⟩ fun r => ∀ c : Dev nD,
      r.2.mem ((c : Thread nD τ).loc main_v1) = Splat.Gcov (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = Splat.Gcam (m ((c : Thread nD τ).loc main_arg0)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨
      ((h c).2 main_v1 (Pipeline.mem_restRefs_of main_v1 (by decide) (by decide))).trans (tail_v1 m c),
      ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c)))⟩)
    (run_main m ρ)

end Cert.KernelIdeal.ArrayValue

end
-- ==== Proof.RefRow.lean ====
/-
  One row of the reference's stages, as the per-Gaussian functions of that row of the arguments.

  The reference computes on whole arrays over the four million Gaussians, one array operation at a time. Every
  operation acts row by row: entry (n, ...) of each stage depends on row n of the arguments only. Stage by stage,
  read at an index whose first coordinate is n: the normalised quaternion, the nine entries of its rotation matrix
  (as vectors, then joined into rows and into the 3×3 array), the matrix M = Rq · diag s, the covariance M Mᵀ;
  the camera-space point, the Jacobian's two rows joined with their structural zeros, W = J R, then Σ contracted
  against W twice, and the dilation on the diagonal. The last statement is the flat 2×2 covariance of the algebra
  module, the one the kernel's blocks hold.
-/
import proofs.«101967_j2362232013506_2_alg».proof.Proof.Gen.ReferenceIdeal.Read
import proofs.«101967_j2362232013506_2_alg».proof.Proof.Algebra
import proofs.«101967_j2362232013506_2_alg».proof.Proof.LibUnitColumns
import Idealize.ShloMosaic.Lib.Pipeline.Value
import Idealize.ShloMosaic.Lib.ValueIdx
import Idealize.ShloMosaic.PureOps.Ideal.Laws

set_option maxRecDepth 16384

noncomputable section

namespace Cert.ReferenceIdeal.RowValue

open Cert Cert.ReferenceIdeal Cert.ReferenceIdeal.Gen Cert.ReferenceIdeal.Read Idealize.ShloMosaic
open Idealize.ShloMosaic.ValueIdx

abbrev C4 : Type := (⟨S4000000x4, .f32⟩ : BufTy).Contents (Elt Ideal)
abbrev C3 : Type := (⟨S4000000x3, .f32⟩ : BufTy).Contents (Elt Ideal)
abbrev CR : Type := (⟨S3x3, .f32⟩ : BufTy).Contents (Elt Ideal)
abbrev CT : Type := (⟨S3, .f32⟩ : BufTy).Contents (Elt Ideal)
abbrev CF : Type := (⟨S1, .f32⟩ : BufTy).Contents (Elt Ideal)

/-! ## Coordinates of an index, and rows of the arguments -/

/-- The Gaussian an index belongs to: its first coordinate. -/
abbrev row1 (i : S4000000.Idx) : Fin 4000000 := ⟨(i 0).val, (i 0).isLt⟩
abbrev row2 {k : ℕ} (i : (⟨2, ![4000000, k]⟩ : Shape).Idx) : Fin 4000000 := ⟨(i 0).val, (i 0).isLt⟩
abbrev col2 {k : ℕ} (i : (⟨2, ![4000000, k]⟩ : Shape).Idx) : Fin k := ⟨(i 1).val, (i 1).isLt⟩
abbrev row3 {a b : ℕ} (i : (⟨3, ![4000000, a, b]⟩ : Shape).Idx) : Fin 4000000 := ⟨(i 0).val, (i 0).isLt⟩
abbrev mid3 {a b : ℕ} (i : (⟨3, ![4000000, a, b]⟩ : Shape).Idx) : Fin a := ⟨(i 1).val, (i 1).isLt⟩
abbrev lst3 {a b : ℕ} (i : (⟨3, ![4000000, a, b]⟩ : Shape).Idx) : Fin b := ⟨(i 2).val, (i 2).isLt⟩

/-- Row n of the quaternions, of the log-scales, of the points; the camera matrix, its translation, the focal length. -/
abbrev qrow (x2 : C4) (n : Fin 4000000) : Fin 4 → EReal := fun c => x2 (ix2 n c)
abbrev erow (x1 : C3) (n : Fin 4000000) : Fin 3 → EReal := fun c => x1 (ix2 n c)
abbrev prow (x0 : C3) (n : Fin 4000000) : Fin 3 → EReal := fun c => x0 (ix2 n c)
abbrev Rm (x3 : CR) : Fin 3 → Fin 3 → EReal := fun i j => x3 (ix2 i j)
abbrev Tv (x4 : CT) : Fin 3 → EReal := fun i => x4 (ix1 i)
abbrev fl (x5 : CF) : EReal := x5 (ix1 (0 : Fin 1))

/-! ## The normalised quaternion -/

theorem v5_at (x2 : C4) (i : S4000000x4.Idx) :
    val_main_v5 (F := Ideal) x2 i = Splat.quat (qrow x2 (row2 i)) (col2 i) := by
  obtain ⟨n, c, rfl⟩ : ∃ (n : Fin 4000000) (c : Fin 4), i = ix2 n c := ⟨i 0, i 1, eq_ix2 i⟩
  rw [val_main_v5_apply, val_main_v4_apply, val_main_v3_apply, val_main_call0_v2_apply, val_main_call0_v1_apply]
  simp only [val_main_call0_v0_apply, val_main_call0_cst_apply]
  show Ideal.div (x2 (ix2 n c)) (Ideal.sqrt (Ideal.ofBits .f32 0x00000000#32 + ∑ k : Fin 4, x2 _ * x2 _))
    = Ideal.div (x2 (ix2 n c)) (Ideal.sqrt (∑ k : Fin 4, x2 (ix2 n k) * x2 (ix2 n k)))
  rw [Ideal.ofBits_zero_f32, zero_add]
  refine congrArg (fun t => Ideal.div (x2 (ix2 n c)) (Ideal.sqrt t)) (Finset.sum_congr rfl fun k _ => ?_)
  have e : idx_main_call0_v1 (idx_main_call0_v2 (idx_main_v4 (ix2 n c))) k = ix2 n k :=
    funext fun a => Fin.ext (by match a with | ⟨0, _⟩ => rfl | ⟨1, _⟩ => rfl)
  rw [e]

theorem v7_at (x2 : C4) (i : S4000000.Idx) :
    val_main_v7 (F := Ideal) x2 i = Splat.quat (qrow x2 (row1 i)) 0 := by
  obtain ⟨n, rfl⟩ : ∃ n : Fin 4000000, i = ix1 n := ⟨i 0, eq_ix1 i⟩
  rw [val_main_v7_apply, show idx_main_v7 (ix1 n) = ix2 n (0 : Fin 1) from
    funext fun a => Fin.ext (by match a with | ⟨0, _⟩ => exact Nat.div_one _ | ⟨1, _⟩ => rfl),
    val_main_v6_apply, v5_at]
  rfl

theorem v9_at (x2 : C4) (i : S4000000.Idx) :
    val_main_v9 (F := Ideal) x2 i = Splat.quat (qrow x2 (row1 i)) 1 := by
  obtain ⟨n, rfl⟩ : ∃ n : Fin 4000000, i = ix1 n := ⟨i 0, eq_ix1 i⟩
  rw [val_main_v9_apply, show idx_main_v9 (ix1 n) = ix2 n (0 : Fin 1) from
    funext fun a => Fin.ext (by match a with | ⟨0, _⟩ => exact Nat.div_one _ | ⟨1, _⟩ => rfl),
    val_main_v8_apply, v5_at]
  rfl

theorem v11_at (x2 : C4) (i : S4000000.Idx) :
    val_main_v11 (F := Ideal) x2 i = Splat.quat (qrow x2 (row1 i)) 2 := by
  obtain ⟨n, rfl⟩ : ∃ n : Fin 4000000, i = ix1 n := ⟨i 0, eq_ix1 i⟩
  rw [val_main_v11_apply, show idx_main_v11 (ix1 n) = ix2 n (0 : Fin 1) from
    funext fun a => Fin.ext (by match a with | ⟨0, _⟩ => exact Nat.div_one _ | ⟨1, _⟩ => rfl),
    val_main_v10_apply, v5_at]
  rfl

theorem v13_at (x2 : C4) (i : S4000000.Idx) :
    val_main_v13 (F := Ideal) x2 i = Splat.quat (qrow x2 (row1 i)) 3 := by
  obtain ⟨n, rfl⟩ : ∃ n : Fin 4000000, i = ix1 n := ⟨i 0, eq_ix1 i⟩
  rw [val_main_v13_apply, show idx_main_v13 (ix1 n) = ix2 n (0 : Fin 1) from
    funext fun a => Fin.ext (by match a with | ⟨0, _⟩ => exact Nat.div_one _ | ⟨1, _⟩ => rfl),
    val_main_v12_apply, v5_at]
  rfl

/-! ## The rotation matrix's nine entries, as vectors over the Gaussians -/

theorem v20_at (x2 : C4) (i : S4000000.Idx) :
    val_main_v20 (F := Ideal) x2 i = Splat.rot (Splat.quat (qrow x2 (row1 i))) 0 0 := by
  rw [val_main_v20_apply, val_main_v19_apply, val_main_cst_1_apply, val_main_v18_apply, val_main_v17_apply, val_main_cst_0_apply, val_main_v16_apply, val_main_v14_apply, val_main_v15_apply, v11_at, v13_at]
  rfl

theorem v25_at (x2 : C4) (i : S4000000.Idx) :
    val_main_v25 (F := Ideal) x2 i = Splat.rot (Splat.quat (qrow x2 (row1 i))) 0 1 := by
  rw [val_main_v25_apply, val_main_v24_apply, val_main_cst_2_apply, val_main_v23_apply, val_main_v21_apply, val_main_v22_apply, v9_at, v11_at, v7_at, v13_at]
  rfl

theorem v30_at (x2 : C4) (i : S4000000.Idx) :
    val_main_v30 (F := Ideal) x2 i = Splat.rot (Splat.quat (qrow x2 (row1 i))) 0 2 := by
  rw [val_main_v30_apply, val_main_v29_apply, val_main_cst_3_apply, val_main_v28_apply, val_main_v26_apply, val_main_v27_apply, v9_at, v13_at, v7_at, v11_at]
  rfl

theorem v39_at (x2 : C4) (i : S4000000.Idx) :
    val_main_v39 (F := Ideal) x2 i = Splat.rot (Splat.quat (qrow x2 (row1 i))) 1 0 := by
  rw [val_main_v39_apply, val_main_v38_apply, val_main_cst_4_apply, val_main_v37_apply, val_main_v35_apply, val_main_v36_apply, v9_at, v11_at, v7_at, v13_at]
  rfl

theorem v46_at (x2 : C4) (i : S4000000.Idx) :
    val_main_v46 (F := Ideal) x2 i = Splat.rot (Splat.quat (qrow x2 (row1 i))) 1 1 := by
  rw [val_main_v46_apply, val_main_v45_apply, val_main_cst_6_apply, val_main_v44_apply, val_main_v43_apply, val_main_cst_5_apply, val_main_v42_apply, val_main_v40_apply, val_main_v41_apply, v9_at, v13_at]
  rfl

theorem v51_at (x2 : C4) (i : S4000000.Idx) :
    val_main_v51 (F := Ideal) x2 i = Splat.rot (Splat.quat (qrow x2 (row1 i))) 1 2 := by
  rw [val_main_v51_apply, val_main_v50_apply, val_main_cst_7_apply, val_main_v49_apply, val_main_v47_apply, val_main_v48_apply, v11_at, v13_at, v7_at, v9_at]
  rfl

theorem v60_at (x2 : C4) (i : S4000000.Idx) :
    val_main_v60 (F := Ideal) x2 i = Splat.rot (Splat.quat (qrow x2 (row1 i))) 2 0 := by
  rw [val_main_v60_apply, val_main_v59_apply, val_main_cst_8_apply, val_main_v58_apply, val_main_v56_apply, val_main_v57_apply, v9_at, v13_at, v7_at, v11_at]
  rfl

theorem v65_at (x2 : C4) (i : S4000000.Idx) :
    val_main_v65 (F := Ideal) x2 i = Splat.rot (Splat.quat (qrow x2 (row1 i))) 2 1 := by
  rw [val_main_v65_apply, val_main_v64_apply, val_main_cst_9_apply, val_main_v63_apply, val_main_v61_apply, val_main_v62_apply, v11_at, v13_at, v7_at, v9_at]
  rfl

theorem v72_at (x2 : C4) (i : S4000000.Idx) :
    val_main_v72 (F := Ideal) x2 i = Splat.rot (Splat.quat (qrow x2 (row1 i))) 2 2 := by
  rw [val_main_v72_apply, val_main_v71_apply, val_main_cst_11_apply, val_main_v70_apply, val_main_v69_apply, val_main_cst_10_apply, val_main_v68_apply, val_main_v66_apply, val_main_v67_apply, v9_at, v11_at]
  rfl

/-! ## ... joined into its three rows, and the rows into the 3×3 array -/

theorem v34_at (x2 : C4) (i : S4000000x3.Idx) :
    val_main_v34 (F := Ideal) x2 i = Splat.rot (Splat.quat (qrow x2 (row2 i))) 0 (col2 i) := by
  obtain ⟨n, c, rfl⟩ : ∃ (n : Fin 4000000) (c : Fin 3), i = ix2 n c := ⟨i 0, i 1, eq_ix2 i⟩
  unfold val_main_v34
  match c with
  | ⟨0, _⟩ =>
    exact (LibUnitColumns.join_cols_apply _ _ n (0 : Fin 3) (by simp) _ rfl rfl).trans
      ((val_main_v31_apply x2 _).trans (v20_at x2 _))
  | ⟨1, _⟩ =>
    exact (LibUnitColumns.join_cols_apply _ _ n (1 : Fin 3) (by simp) _ rfl rfl).trans
      ((val_main_v32_apply x2 _).trans (v25_at x2 _))
  | ⟨2, _⟩ =>
    exact (LibUnitColumns.join_cols_apply _ _ n (2 : Fin 3) (by simp) _ rfl rfl).trans
      ((val_main_v33_apply x2 _).trans (v30_at x2 _))

theorem v55_at (x2 : C4) (i : S4000000x3.Idx) :
    val_main_v55 (F := Ideal) x2 i = Splat.rot (Splat.quat (qrow x2 (row2 i))) 1 (col2 i) := by
  obtain ⟨n, c, rfl⟩ : ∃ (n : Fin 4000000) (c : Fin 3), i = ix2 n c := ⟨i 0, i 1, eq_ix2 i⟩
  unfold val_main_v55
  match c with
  | ⟨0, _⟩ =>
    exact (LibUnitColumns.join_cols_apply _ _ n (0 : Fin 3) (by simp) _ rfl rfl).trans
      ((val_main_v52_apply x2 _).trans (v39_at x2 _))
  | ⟨1, _⟩ =>
    exact (LibUnitColumns.join_cols_apply _ _ n (1 : Fin 3) (by simp) _ rfl rfl).trans
      ((val_main_v53_apply x2 _).trans (v46_at x2 _))
  | ⟨2, _⟩ =>
    exact (LibUnitColumns.join_cols_apply _ _ n (2 : Fin 3) (by simp) _ rfl rfl).trans
      ((val_main_v54_apply x2 _).trans (v51_at x2 _))

theorem v76_at (x2 : C4) (i : S4000000x3.Idx) :
    val_main_v76 (F := Ideal) x2 i = Splat.rot (Splat.quat (qrow x2 (row2 i))) 2 (col2 i) := by
  obtain ⟨n, c, rfl⟩ : ∃ (n : Fin 4000000) (c : Fin 3), i = ix2 n c := ⟨i 0, i 1, eq_ix2 i⟩
  unfold val_main_v76
  match c with
  | ⟨0, _⟩ =>
    exact (LibUnitColumns.join_cols_apply _ _ n (0 : Fin 3) (by simp) _ rfl rfl).trans
      ((val_main_v73_apply x2 _).trans (v60_at x2 _))
  | ⟨1, _⟩ =>
    exact (LibUnitColumns.join_cols_apply _ _ n (1 : Fin 3) (by simp) _ rfl rfl).trans
      ((val_main_v74_apply x2 _).trans (v65_at x2 _))
  | ⟨2, _⟩ =>
    exact (LibUnitColumns.join_cols_apply _ _ n (2 : Fin 3) (by simp) _ rfl rfl).trans
      ((val_main_v75_apply x2 _).trans (v72_at x2 _))

theorem v80_at (x2 : C4) (i : S4000000x3x3.Idx) :
    val_main_v80 (F := Ideal) x2 i = Splat.rot (Splat.quat (qrow x2 (row3 i))) (mid3 i) (lst3 i) := by
  obtain ⟨n, a, b, rfl⟩ : ∃ (n : Fin 4000000) (a b : Fin 3), i = ix3 n a b := ⟨i 0, i 1, i 2, eq_ix3 i⟩
  unfold val_main_v80
  match a with
  | ⟨0, _⟩ =>
    exact (LibUnitColumns.join_mids_apply _ _ n (0 : Fin 3) b (by simp) _ rfl rfl).trans
      ((val_main_v77_apply x2 _).trans (v34_at x2 _))
  | ⟨1, _⟩ =>
    exact (LibUnitColumns.join_mids_apply _ _ n (1 : Fin 3) b (by simp) _ rfl rfl).trans
      ((val_main_v78_apply x2 _).trans (v55_at x2 _))
  | ⟨2, _⟩ =>
    exact (LibUnitColumns.join_mids_apply _ _ n (2 : Fin 3) b (by simp) _ rfl rfl).trans
      ((val_main_v79_apply x2 _).trans (v76_at x2 _))

/-! ## M = Rq · diag s and the covariance M Mᵀ -/

theorem v83_at (x1 : C3) (x2 : C4) (i : S4000000x3x3.Idx) :
    val_main_v83 (F := Ideal) x1 x2 i = Splat.mm (qrow x2 (row3 i)) (erow x1 (row3 i)) (mid3 i) (lst3 i) := by
  obtain ⟨n, a, b, rfl⟩ : ∃ (n : Fin 4000000) (a b : Fin 3), i = ix3 n a b := ⟨i 0, i 1, i 2, eq_ix3 i⟩
  rw [val_main_v83_apply, v80_at, val_main_v82_apply, val_main_v81_apply, val_main_v2_apply, val_main_v0_apply,
    val_main_v1_apply, val_main_cst_apply]
  have e : idx_main_v81 (idx_main_v82 (ix3 n a b)) = ix2 n b :=
    funext fun d => Fin.ext (by match d with | ⟨0, _⟩ => rfl | ⟨1, _⟩ => rfl)
  rw [e]
  rfl

theorem v84_at (x1 : C3) (x2 : C4) (i : S4000000x3x3.Idx) :
    val_main_v84 (F := Ideal) x1 x2 i = Splat.cov (qrow x2 (row3 i)) (erow x1 (row3 i)) (mid3 i) (lst3 i) := by
  obtain ⟨n, a, b, rfl⟩ : ∃ (n : Fin 4000000) (a b : Fin 3), i = ix3 n a b := ⟨i 0, i 1, i 2, eq_ix3 i⟩
  rw [val_main_v84_apply]
  simp only [v83_at]
  exact Splat.sum3_eq_dot3 (fun k => Splat.mm (qrow x2 n) (erow x1 n) a k) (fun k => Splat.mm (qrow x2 n) (erow x1 n) b k)

end Cert.ReferenceIdeal.RowValue

end
-- ==== Proof.RefProject.lean ====
/-
  The second half of the reference, row by row: the camera-space point, the perspective Jacobian, W = J R, the
  covariance contracted against W twice, the dilation on the diagonal — and so the two results.

  The point is R x + T: a product with the transposed camera matrix, so entry i contracts row i of R. The depth gets
  its epsilon; f / z and -(f p) / z² are the Jacobian's entries; its two rows are joined from three columns each,
  one of them the zero vector, and stacked. W's entry (i, k) contracts Jacobian row i with column k of R. The
  covariance is contracted on its first axis against W's rows, and the result again against W's rows. The identity
  times 0.3 is built from two iotas, a compare and a conversion: 0.3 on the diagonal, 0 off it.
-/
import proofs.«101967_j2362232013506_2_alg».proof.Proof.RefRow
import proofs.«101967_j2362232013506_2_alg».proof.Proof.Spec

set_option maxRecDepth 16384

noncomputable section

namespace Cert.ReferenceIdeal.RowValue

open Cert Cert.ReferenceIdeal Cert.ReferenceIdeal.Gen Cert.ReferenceIdeal.Read Idealize.ShloMosaic
open Idealize.ShloMosaic.ValueIdx

/-! ## The point in camera space -/

theorem v89_at (x0 : C3) (x3 : CR) (x4 : CT) (i : S4000000x3.Idx) :
    val_main_v89 (F := Ideal) x0 x3 x4 i = Splat.cam (prow x0 (row2 i)) (Rm x3) (Tv x4) (col2 i) := by
  obtain ⟨n, c, rfl⟩ : ∃ (n : Fin 4000000) (c : Fin 3), i = ix2 n c := ⟨i 0, i 1, eq_ix2 i⟩
  have e1 : ∀ k : Fin 3, lidx_main_v86 (ix2 n c) k = ix2 n k := fun k =>
    funext fun a => Fin.ext (by match a with | ⟨0, _⟩ => rfl | ⟨1, _⟩ => rfl)
  have e2 : ∀ k : Fin 3, idx_main_v85 (ridx_main_v86 (ix2 n c) k) = ix2 c k := fun k =>
    funext fun a => Fin.ext (by match a with | ⟨0, _⟩ => rfl | ⟨1, _⟩ => rfl)
  have e3 : idx_main_v87 (idx_main_v88 (ix2 n c)) = ix1 c :=
    funext fun a => Fin.ext (by match a with | ⟨0, _⟩ => rfl)
  rw [val_main_v89_apply, val_main_v86_apply, val_main_v88_apply, val_main_v87_apply, e3,
    Finset.sum_congr rfl (fun k _ => by rw [val_main_v85_apply, e1 k, e2 k] :
      ∀ k ∈ (Finset.univ : Finset (Fin 3)), x0 (lidx_main_v86 (ix2 n c) k) * val_main_v85 (F := Ideal) x3 (ridx_main_v86 (ix2 n c) k)
        = x0 (ix2 n k) * x3 (ix2 c k))]
  exact congrArg (· + x4 (ix1 c)) (Splat.sum3_eq_dot3 (fun k => x0 (ix2 n k)) (fun k => x3 (ix2 c k)))

theorem v92_at (x0 : C3) (x3 : CR) (x4 : CT) (i : S4000000.Idx) :
    val_main_v92 (F := Ideal) x0 x3 x4 i = Splat.cam (prow x0 (row1 i)) (Rm x3) (Tv x4) 0 := by
  obtain ⟨n, rfl⟩ : ∃ n : Fin 4000000, i = ix1 n := ⟨i 0, eq_ix1 i⟩
  rw [val_main_v92_apply, show idx_main_v92 (ix1 n) = ix2 n (0 : Fin 1) from
    funext fun a => Fin.ext (by match a with | ⟨0, _⟩ => exact Nat.div_one _ | ⟨1, _⟩ => rfl),
    val_main_v91_apply, v89_at]
  rfl

theorem v94_at (x0 : C3) (x3 : CR) (x4 : CT) (i : S4000000.Idx) :
    val_main_v94 (F := Ideal) x0 x3 x4 i = Splat.cam (prow x0 (row1 i)) (Rm x3) (Tv x4) 1 := by
  obtain ⟨n, rfl⟩ : ∃ n : Fin 4000000, i = ix1 n := ⟨i 0, eq_ix1 i⟩
  rw [val_main_v94_apply, show idx_main_v94 (ix1 n) = ix2 n (0 : Fin 1) from
    funext fun a => Fin.ext (by match a with | ⟨0, _⟩ => exact Nat.div_one _ | ⟨1, _⟩ => rfl),
    val_main_v93_apply, v89_at]
  rfl

theorem v96_at (x0 : C3) (x3 : CR) (x4 : CT) (i : S4000000.Idx) :
    val_main_v96 (F := Ideal) x0 x3 x4 i = Splat.cam (prow x0 (row1 i)) (Rm x3) (Tv x4) 2 := by
  obtain ⟨n, rfl⟩ : ∃ n : Fin 4000000, i = ix1 n := ⟨i 0, eq_ix1 i⟩
  rw [val_main_v96_apply, show idx_main_v96 (ix1 n) = ix2 n (0 : Fin 1) from
    funext fun a => Fin.ext (by match a with | ⟨0, _⟩ => exact Nat.div_one _ | ⟨1, _⟩ => rfl),
    val_main_v95_apply, v89_at]
  rfl

/-! ## The focal length, the depth, the Jacobian's entries -/

/-- The one-entry array re-laid as a scalar. -/
theorem v90_at (x5 : CF) (j : S_.Idx) : val_main_v90 (F := Ideal) x5 j = fl x5 := by
  unfold val_main_v90
  exact shapeCast_apply x5 shapeCasts_S1_S_ j (ix1 (0 : Fin 1)) (by
    show (S1.rowMajor (ix1 (0 : Fin 1))).val = (S_.rowMajor j).val
    have n1 : S1.numel = 1 := by decide
    have n0 : S_.numel = 1 := by decide
    have h1 : (S1.rowMajor (ix1 (0 : Fin 1))).val < S1.numel := (S1.rowMajor (ix1 (0 : Fin 1))).isLt
    have h2 : (S_.rowMajor j).val < S_.numel := (S_.rowMajor j).isLt
    omega)

theorem v98_at (x0 : C3) (x3 : CR) (x4 : CT) (i : S4000000.Idx) :
    val_main_v98 (F := Ideal) x0 x3 x4 i = Splat.zeps (prow x0 (row1 i)) (Rm x3) (Tv x4) := by
  rw [val_main_v98_apply, val_main_v97_apply, val_main_cst_12_apply, v96_at]
  rfl

theorem v99_at (i : S4000000.Idx) : val_main_v99 (F := Ideal) i = 0 := by
  rw [val_main_v99_apply, val_main_cst_13_apply]
  exact Ideal.ofBits_zero_f32

theorem v101_at (x0 : C3) (x3 : CR) (x4 : CT) (x5 : CF) (i : S4000000.Idx) :
    val_main_v101 (F := Ideal) x0 x3 x4 x5 i = Splat.invz (prow x0 (row1 i)) (Rm x3) (Tv x4) (fl x5) := by
  rw [val_main_v101_apply, val_main_v100_apply, v90_at, v98_at]
  rfl

theorem v106_at (x0 : C3) (x3 : CR) (x4 : CT) (x5 : CF) (i : S4000000.Idx) :
    val_main_v106 (F := Ideal) x0 x3 x4 x5 i
      = Ideal.div (-(fl x5 * Splat.cam (prow x0 (row1 i)) (Rm x3) (Tv x4) 0)) (Splat.zeps (prow x0 (row1 i)) (Rm x3) (Tv x4) * Splat.zeps (prow x0 (row1 i)) (Rm x3) (Tv x4)) := by
  rw [val_main_v106_apply, val_main_v104_apply, val_main_v103_apply, val_main_v102_apply, v90_at, v92_at,
    val_main_v105_apply, v98_at]
  rfl

theorem v115_at (x0 : C3) (x3 : CR) (x4 : CT) (x5 : CF) (i : S4000000.Idx) :
    val_main_v115 (F := Ideal) x0 x3 x4 x5 i
      = Ideal.div (-(fl x5 * Splat.cam (prow x0 (row1 i)) (Rm x3) (Tv x4) 1)) (Splat.zeps (prow x0 (row1 i)) (Rm x3) (Tv x4) * Splat.zeps (prow x0 (row1 i)) (Rm x3) (Tv x4)) := by
  rw [val_main_v115_apply, val_main_v113_apply, val_main_v112_apply, val_main_v111_apply, v90_at, v94_at,
    val_main_v114_apply, v98_at]
  rfl

/-! ## The Jacobian's two rows, joined with their zeros, and stacked -/

/-- The Jacobian's rows for a point p = (P, R, T) and focal length f. -/
abbrev J0 (P : Fin 3 → EReal) (R : Fin 3 → Fin 3 → EReal) (T : Fin 3 → EReal) (f : EReal) : Fin 3 → EReal :=
  ![Splat.invz P R T f, 0, Ideal.div (-(f * Splat.cam P R T 0)) (Splat.zeps P R T * Splat.zeps P R T)]
abbrev J1 (P : Fin 3 → EReal) (R : Fin 3 → Fin 3 → EReal) (T : Fin 3 → EReal) (f : EReal) : Fin 3 → EReal :=
  ![0, Splat.invz P R T f, Ideal.div (-(f * Splat.cam P R T 1)) (Splat.zeps P R T * Splat.zeps P R T)]

theorem v110_at (x0 : C3) (x3 : CR) (x4 : CT) (x5 : CF) (i : S4000000x3.Idx) :
    val_main_v110 (F := Ideal) x0 x3 x4 x5 i = J0 (prow x0 (row2 i)) (Rm x3) (Tv x4) (fl x5) (col2 i) := by
  obtain ⟨n, c, rfl⟩ : ∃ (n : Fin 4000000) (c : Fin 3), i = ix2 n c := ⟨i 0, i 1, eq_ix2 i⟩
  unfold val_main_v110
  match c with
  | ⟨0, _⟩ =>
    exact (LibUnitColumns.join_cols_apply _ _ n (0 : Fin 3) (by simp) _ rfl rfl).trans
      ((val_main_v107_apply x0 x3 x4 x5 _).trans (v101_at x0 x3 x4 x5 _))
  | ⟨1, _⟩ =>
    exact (LibUnitColumns.join_cols_apply _ _ n (1 : Fin 3) (by simp) _ rfl rfl).trans
      ((val_main_v108_apply _).trans (v99_at _))
  | ⟨2, _⟩ =>
    exact (LibUnitColumns.join_cols_apply _ _ n (2 : Fin 3) (by simp) _ rfl rfl).trans
      ((val_main_v109_apply x0 x3 x4 x5 _).trans (v106_at x0 x3 x4 x5 _))

theorem v119_at (x0 : C3) (x3 : CR) (x4 : CT) (x5 : CF) (i : S4000000x3.Idx) :
    val_main_v119 (F := Ideal) x0 x3 x4 x5 i = J1 (prow x0 (row2 i)) (Rm x3) (Tv x4) (fl x5) (col2 i) := by
  obtain ⟨n, c, rfl⟩ : ∃ (n : Fin 4000000) (c : Fin 3), i = ix2 n c := ⟨i 0, i 1, eq_ix2 i⟩
  unfold val_main_v119
  match c with
  | ⟨0, _⟩ =>
    exact (LibUnitColumns.join_cols_apply _ _ n (0 : Fin 3) (by simp) _ rfl rfl).trans
      ((val_main_v116_apply _).trans (v99_at _))
  | ⟨1, _⟩ =>
    exact (LibUnitColumns.join_cols_apply _ _ n (1 : Fin 3) (by simp) _ rfl rfl).trans
      ((val_main_v117_apply x0 x3 x4 x5 _).trans (v101_at x0 x3 x4 x5 _))
  | ⟨2, _⟩ =>
    exact (LibUnitColumns.join_cols_apply _ _ n (2 : Fin 3) (by simp) _ rfl rfl).trans
      ((val_main_v118_apply x0 x3 x4 x5 _).trans (v115_at x0 x3 x4 x5 _))

theorem v122_at (x0 : C3) (x3 : CR) (x4 : CT) (x5 : CF) (i : S4000000x2x3.Idx) :
    val_main_v122 (F := Ideal) x0 x3 x4 x5 i
      = (![J0 (prow x0 (row3 i)) (Rm x3) (Tv x4) (fl x5), J1 (prow x0 (row3 i)) (Rm x3) (Tv x4) (fl x5)] :
          Fin 2 → Fin 3 → EReal) (mid3 i) (lst3 i) := by
  obtain ⟨n, a, b, rfl⟩ : ∃ (n : Fin 4000000) (a : Fin 2) (b : Fin 3), i = ix3 n a b := ⟨i 0, i 1, i 2, eq_ix3 i⟩
  unfold val_main_v122
  match a with
  | ⟨0, _⟩ =>
    exact (LibUnitColumns.join_mids_apply _ _ n (0 : Fin 2) b (by simp) _ rfl rfl).trans
      ((val_main_v120_apply x0 x3 x4 x5 _).trans (v110_at x0 x3 x4 x5 _))
  | ⟨1, _⟩ =>
    exact (LibUnitColumns.join_mids_apply _ _ n (1 : Fin 2) b (by simp) _ rfl rfl).trans
      ((val_main_v121_apply x0 x3 x4 x5 _).trans (v119_at x0 x3 x4 x5 _))

/-! ## W = J R, and the two contractions with the covariance -/

/-- A row number 0 or 1 as a row number of the 3×3 camera matrix. -/
abbrev up (a : Fin 2) : Fin 3 := ⟨a.val, by have := a.isLt; omega⟩

theorem v123_at (x0 : C3) (x3 : CR) (x4 : CT) (x5 : CF) (i : S4000000x2x3.Idx) :
    val_main_v123 (F := Ideal) x0 x3 x4 x5 i
      = Splat.mw (prow x0 (row3 i)) (Rm x3) (Tv x4) (fl x5) (up (mid3 i)) (lst3 i) := by
  obtain ⟨n, a, b, rfl⟩ : ∃ (n : Fin 4000000) (a : Fin 2) (b : Fin 3), i = ix3 n a b := ⟨i 0, i 1, i 2, eq_ix3 i⟩
  have e : ∀ k : Fin 3, ridx_main_v123 (ix3 n a b) k = ix2 k b := fun k =>
    funext fun d => Fin.ext (by match d with | ⟨0, _⟩ => rfl | ⟨1, _⟩ => rfl)
  rw [val_main_v123_apply,
    Finset.sum_congr rfl (fun k _ => by rw [v122_at, e k] :
      ∀ k ∈ (Finset.univ : Finset (Fin 3)),
        val_main_v122 (F := Ideal) x0 x3 x4 x5 (lidx_main_v123 (ix3 n a b) k) * x3 (ridx_main_v123 (ix3 n a b) k)
        = (![J0 (prow x0 n) (Rm x3) (Tv x4) (fl x5), J1 (prow x0 n) (Rm x3) (Tv x4) (fl x5)] :
            Fin 2 → Fin 3 → EReal) a k * x3 (ix2 k b))]
  match a with
  | ⟨0, _⟩ =>
    exact (Splat.sum3_eq_dot3 (J0 (prow x0 n) (Rm x3) (Tv x4) (fl x5)) (fun k => x3 (ix2 k b))).trans
      (Splat.mw_row0 (prow x0 n) (Rm x3) (Tv x4) (fl x5) b)
  | ⟨1, _⟩ =>
    exact (Splat.sum3_eq_dot3 (J1 (prow x0 n) (Rm x3) (Tv x4) (fl x5)) (fun k => x3 (ix2 k b))).trans
      (Splat.mw_row1 (prow x0 n) (Rm x3) (Tv x4) (fl x5) b)

theorem v124_at (x0 x1 : C3) (x2 : C4) (x3 : CR) (x4 : CT) (x5 : CF) (i : S4000000x3x2.Idx) :
    val_main_v124 (F := Ideal) x0 x1 x2 x3 x4 x5 i
      = Splat.tmp (qrow x2 (row3 i)) (erow x1 (row3 i)) (prow x0 (row3 i)) (Rm x3) (Tv x4) (fl x5) (up (lst3 i)) (mid3 i) := by
  obtain ⟨n, k, a, rfl⟩ : ∃ (n : Fin 4000000) (k : Fin 3) (a : Fin 2), i = ix3 n k a := ⟨i 0, i 1, i 2, eq_ix3 i⟩
  rw [val_main_v124_apply,
    Finset.sum_congr rfl (fun j _ => by rw [v84_at, v123_at] :
      ∀ j ∈ (Finset.univ : Finset (Fin 3)),
        val_main_v84 (F := Ideal) x1 x2 (lidx_main_v124 (ix3 n k a) j) * val_main_v123 (F := Ideal) x0 x3 x4 x5 (ridx_main_v124 (ix3 n k a) j)
        = Splat.cov (qrow x2 n) (erow x1 n) j k * Splat.mw (prow x0 n) (Rm x3) (Tv x4) (fl x5) (up a) j)]
  exact (Splat.sum3_eq_dot3 (fun j => Splat.cov (qrow x2 n) (erow x1 n) j k) (Splat.mw (prow x0 n) (Rm x3) (Tv x4) (fl x5) (up a))).trans
    (Splat.tmp_eq (qrow x2 n) (erow x1 n) (prow x0 n) (Rm x3) (Tv x4) (fl x5) (up a) k)

theorem v125_at (x0 x1 : C3) (x2 : C4) (x3 : CR) (x4 : CT) (x5 : CF) (i : S4000000x2x2.Idx) :
    val_main_v125 (F := Ideal) x0 x1 x2 x3 x4 x5 i
      = Splat.cc (qrow x2 (row3 i)) (erow x1 (row3 i)) (prow x0 (row3 i)) (Rm x3) (Tv x4) (fl x5) (up (mid3 i)) (up (lst3 i)) := by
  obtain ⟨n, a, l, rfl⟩ : ∃ (n : Fin 4000000) (a l : Fin 2), i = ix3 n a l := ⟨i 0, i 1, i 2, eq_ix3 i⟩
  rw [val_main_v125_apply,
    Finset.sum_congr rfl (fun k _ => by rw [v124_at, v123_at] :
      ∀ k ∈ (Finset.univ : Finset (Fin 3)),
        val_main_v124 (F := Ideal) x0 x1 x2 x3 x4 x5 (lidx_main_v125 (ix3 n a l) k) * val_main_v123 (F := Ideal) x0 x3 x4 x5 (ridx_main_v125 (ix3 n a l) k)
        = Splat.tmp (qrow x2 n) (erow x1 n) (prow x0 n) (Rm x3) (Tv x4) (fl x5) (up a) k * Splat.mw (prow x0 n) (Rm x3) (Tv x4) (fl x5) (up l) k)]
  exact Splat.sum3_eq_dot3 (Splat.tmp (qrow x2 n) (erow x1 n) (prow x0 n) (Rm x3) (Tv x4) (fl x5) (up a)) (Splat.mw (prow x0 n) (Rm x3) (Tv x4) (fl x5) (up l))

/-! ## The dilation: 0.3 on the diagonal -/

theorem eye00 : IntOp.cmpi .eq (IntOp.addi (BitVec.ofNat 32 0) 0#32) (BitVec.ofNat 32 0) = 1#1 := by decide
theorem eye01 : IntOp.cmpi .eq (IntOp.addi (BitVec.ofNat 32 0) 0#32) (BitVec.ofNat 32 1) = 0#1 := by decide
theorem eye10 : IntOp.cmpi .eq (IntOp.addi (BitVec.ofNat 32 1) 0#32) (BitVec.ofNat 32 0) = 0#1 := by decide
theorem eye11 : IntOp.cmpi .eq (IntOp.addi (BitVec.ofNat 32 1) 0#32) (BitVec.ofNat 32 1) = 1#1 := by decide

/-- The conversion of a one-bit word: 1 and 0. -/
theorem conv_one : FloatOps.uitofp (F := Ideal) .f32 (1#1 : BitVec 1) = 1 := by
  show (((1#1 : BitVec 1).toNat : ℝ) : EReal) = 1
  simp
theorem conv_zero : FloatOps.uitofp (F := Ideal) .f32 (0#1 : BitVec 1) = 0 := by
  show (((0#1 : BitVec 1).toNat : ℝ) : EReal) = 0
  simp

theorem v135_at (i : S4000000x2x2.Idx) :
    val_main_v135 (F := Ideal) i = (![![Splat.wDil, 0], ![0, Splat.wDil]] : Fin 2 → Fin 2 → EReal) (mid3 i) (lst3 i) := by
  obtain ⟨n, a, l, rfl⟩ : ∃ (n : Fin 4000000) (a l : Fin 2), i = ix3 n a l := ⟨i 0, i 1, i 2, eq_ix3 i⟩
  rw [val_main_v135_apply, val_main_v134_apply, val_main_v133_apply, val_main_v132_apply, val_main_cst_14_apply,
    val_main_v131_apply, val_main_v130_apply, val_main_v129_apply, val_main_v126_apply, val_main_v128_apply,
    val_main_c_apply, val_main_v127_apply]
  match a, l with
  | ⟨0, _⟩, ⟨0, _⟩ =>
    show Splat.wDil * FloatOps.uitofp (F := Ideal) .f32 (IntOp.cmpi .eq (IntOp.addi (BitVec.ofNat 32 0) 0#32) (BitVec.ofNat 32 0)) = Splat.wDil
    rw [eye00, conv_one, mul_one]
  | ⟨0, _⟩, ⟨1, _⟩ =>
    show Splat.wDil * FloatOps.uitofp (F := Ideal) .f32 (IntOp.cmpi .eq (IntOp.addi (BitVec.ofNat 32 0) 0#32) (BitVec.ofNat 32 1)) = 0
    rw [eye01, conv_zero, mul_zero]
  | ⟨1, _⟩, ⟨0, _⟩ =>
    show Splat.wDil * FloatOps.uitofp (F := Ideal) .f32 (IntOp.cmpi .eq (IntOp.addi (BitVec.ofNat 32 1) 0#32) (BitVec.ofNat 32 0)) = 0
    rw [eye10, conv_zero, mul_zero]
  | ⟨1, _⟩, ⟨1, _⟩ =>
    show Splat.wDil * FloatOps.uitofp (F := Ideal) .f32 (IntOp.cmpi .eq (IntOp.addi (BitVec.ofNat 32 1) 0#32) (BitVec.ofNat 32 1)) = Splat.wDil
    rw [eye11, conv_one, mul_one]

/-! ## The two results -/

/-- The reference's covariance result is the shared whole-array function. -/
theorem cov_eq (x0 x1 : C3) (x2 : C4) (x3 : CR) (x4 : CT) (x5 : CF) :
    val_main_v136 (F := Ideal) x0 x1 x2 x3 x4 x5 = Splat.Gcov x0 x1 x2 x3 x4 x5 := by
  funext i
  obtain ⟨n, a, l, rfl⟩ : ∃ (n : Fin 4000000) (a l : Fin 2), i = ix3 n a l := ⟨i 0, i 1, i 2, eq_ix3 i⟩
  rw [val_main_v136_apply, v125_at, v135_at]
  match a, l with
  | ⟨0, _⟩, ⟨0, _⟩ => rfl
  | ⟨0, _⟩, ⟨1, _⟩ =>
    show Splat.cc (qrow x2 n) (erow x1 n) (prow x0 n) (Rm x3) (Tv x4) (fl x5) 0 1 + 0 = Splat.cc (qrow x2 n) (erow x1 n) (prow x0 n) (Rm x3) (Tv x4) (fl x5) 0 1
    exact add_zero _
  | ⟨1, _⟩, ⟨0, _⟩ =>
    show Splat.cc (qrow x2 n) (erow x1 n) (prow x0 n) (Rm x3) (Tv x4) (fl x5) 1 0 + 0 = Splat.cc (qrow x2 n) (erow x1 n) (prow x0 n) (Rm x3) (Tv x4) (fl x5) 1 0
    exact add_zero _
  | ⟨1, _⟩, ⟨1, _⟩ => rfl

/-- The reference's point result is the shared whole-array function. -/
theorem cam_eq (x0 : C3) (x3 : CR) (x4 : CT) :
    val_main_v89 (F := Ideal) x0 x3 x4 = Splat.Gcam x0 x3 x4 :=
  funext fun i => v89_at x0 x3 x4 i

end Cert.ReferenceIdeal.RowValue

end
-- ==== Proof.lean ====
/-
  The kernel projects four million 3-D Gaussians to the image plane: from each Gaussian's quaternion and log-scales
  its 3×3 covariance Σ = (Rq diag s)(Rq diag s)ᵀ, from its position the camera-space point p = R x + T and the
  perspective Jacobian J at p, and the 2×2 image covariance W Σ Wᵀ + 0.3 I with W = J R. The reference says the
  same with whole-array operations and einsums.

  At the extended reals the two programs compute one value, Gaussian by Gaussian, with no finiteness used: they
  differ only in the order of products, in structural zeros kept or dropped, and in a negation spelt 0 - t or -t
  (Proof/Algebra.lean). The kernel's blocks are rows of one whole-array function (Proof/KernelRow.lean), its 500
  blocks tile the arrays and the line after the call re-lays [N, 4] as [N, 2, 2] (Proof/KernelArray.lean); the
  reference's stages read at a Gaussian are the same functions (Proof/RefRow.lean, Proof/RefProject.lean). The
  three frames are the generated ones; the idealized kernel is the kernel's own text read at the extended reals, so
  there is no rewrite to account for.
-/
import proofs.«101967_j2362232013506_2_alg».proof.Defs
import proofs.«101967_j2362232013506_2_alg».proof.Proof.Gen.Kernel
import proofs.«101967_j2362232013506_2_alg».proof.Proof.Gen.Kernel.Skeleton
import proofs.«101967_j2362232013506_2_alg».proof.Proof.Gen.Kernel.Launch
import proofs.«101967_j2362232013506_2_alg».proof.Proof.Gen.Kernel.Points
import proofs.«101967_j2362232013506_2_alg».proof.Proof.Gen.Kernel.Frame
import proofs.«101967_j2362232013506_2_alg».proof.Proof.Gen.KernelIdeal
import proofs.«101967_j2362232013506_2_alg».proof.Proof.Gen.KernelIdeal.Skeleton
import proofs.«101967_j2362232013506_2_alg».proof.Proof.Gen.KernelIdeal.Launch
import proofs.«101967_j2362232013506_2_alg».proof.Proof.Gen.KernelIdeal.Points
import proofs.«101967_j2362232013506_2_alg».proof.Proof.Gen.KernelIdeal.Frame
import proofs.«101967_j2362232013506_2_alg».proof.Proof.Gen.ReferenceIdeal
import proofs.«101967_j2362232013506_2_alg».proof.Proof.Gen.Pre_finite_inputs
import proofs.«101967_j2362232013506_2_alg».proof.Proof.Gen.ReferenceIdeal.Run
import proofs.«101967_j2362232013506_2_alg».proof.Proof.Gen.ReferenceIdeal.Read
import proofs.«101967_j2362232013506_2_alg».proof.Proof.KernelArray
import proofs.«101967_j2362232013506_2_alg».proof.Proof.RefProject
import Idealize.ShloMosaic.Adequacy
import Idealize.ShloMosaic.Init

noncomputable section

namespace Cert.Proof

open Idealize.ShloMosaic Idealize.SL.Sem

section Claims

variable [hKernel : Cert.Kernel.Facts] [hKernelIdeal : Cert.KernelIdeal.Facts]
  [hReferenceIdeal : Cert.ReferenceIdeal.Facts] [hPre : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- Both runs end with the covariance array and the point array at the same whole-array functions of the
    arguments, which agree. -/
theorem algebraic : Cert.algebraic_KernelIdeal_ReferenceIdeal := by
  intro m ρ m' ρ' _ hagree
  refine ⟨fun c => Splat.Gcov (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Splat.Gcam (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.ArrayValue.run m ρ, ?_⟩
  refine (θ_run Cert.ReferenceIdeal.defs _ _).mono (fun r h c => ?_)
    (Cert.ReferenceIdeal.Value.run (F := Ideal) m' ρ')
  obtain ⟨h0, h1, h2, h3, h4, h5⟩ := hagree c
  refine ⟨?_, ?_, (h c).2.2⟩
  · rw [(h c).1, Cert.ReferenceIdeal.Read.val_main_v136_eq, Cert.ReferenceIdeal.RowValue.cov_eq, h0, h1, h2, h3, h4, h5]
  · rw [(h c).2.1, Cert.ReferenceIdeal.Read.val_main_v89_eq, Cert.ReferenceIdeal.RowValue.cam_eq, h0, h3, h4]

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
